-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x4x4 : Shape := ⟨3, ![8, 4, 4]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x4x4 : S_.BroadcastsInDim S8x4x4 (![] : Fin 0 → Fin S8x4x4.rank)
  reducesTo_S8x4x4_S_d0_1_2 : S8x4x4.ReducesTo [0, 1, 2] S_

variable [Facts]

def fn {F : FTy → Type} [FloatOps F] (main_arg0 : FVec F S8x4096x3 .f32) (main_arg1 : FVec F S8x4096x3 .f32) (main_arg2 : FVec F S8x4x4 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x4x4 .f32 := Host.absf main_arg2
  let main_cst_2 : FVec F S_ .f32 := constant S_ .f32 0x7F800000#32
  let main_v10 : FVec F S8x4x4 .f32 := broadcastInDim S8x4x4 ![] bcast_S_S8x4x4 main_cst_2
  let main_v11 : IVec S8x4x4 1 := cmpf .olt main_v9 main_v10
  let main_c_3 : IVec S_ 1 := constantI S_ 1 1#1
  let main_v12 : IVec S_ 1 := (fun x v => Host.reduce IntOp.andi x v reducesTo_S8x4x4_S_d0_1_2 h_S_) main_v11 main_c_3
  let main_v13 : IVec S_ 1 := andi main_v8 main_v12
  main_v13
-- ==== Kernel.lean ====
abbrev S8x4096x3 : Shape := ⟨3, ![8, 4096, 3]⟩
abbrev S8x4x4 : Shape := ⟨3, ![8, 4, 4]⟩
abbrev S8x3x3 : Shape := ⟨3, ![8, 3, 3]⟩
abbrev S8x3x1 : Shape := ⟨3, ![8, 3, 1]⟩
abbrev S8x3 : Shape := ⟨2, ![8, 3]⟩
abbrev S8x1x3 : Shape := ⟨3, ![8, 1, 3]⟩
abbrev S8x3x4096 : Shape := ⟨3, ![8, 3, 4096]⟩
abbrev S8x4096x1 : Shape := ⟨3, ![8, 4096, 1]⟩
abbrev S8x1x4096 : Shape := ⟨3, ![8, 1, 4096]⟩
abbrev S1x1024x3 : Shape := ⟨3, ![1, 1024, 3]⟩
abbrev S1x3x4096 : Shape := ⟨3, ![1, 3, 4096]⟩
abbrev S1x1024x1 : Shape := ⟨3, ![1, 1024, 1]⟩
abbrev S1x1x4096 : Shape := ⟨3, ![1, 1, 4096]⟩
abbrev S1024x3 : Shape := ⟨2, ![1024, 3]⟩
abbrev S3x4096 : Shape := ⟨2, ![3, 4096]⟩
abbrev S1024x1 : Shape := ⟨2, ![1024, 1]⟩
abbrev S1x4096 : Shape := ⟨2, ![1, 4096]⟩
abbrev S1024x4096 : Shape := ⟨2, ![1024, 4096]⟩
abbrev S1024 : Shape := ⟨1, ![1024]⟩
abbrev S4096 : Shape := ⟨1, ![4096]⟩
abbrev S8x4096 : Shape := ⟨2, ![8, 4096]⟩
abbrev S_ : Shape := ⟨0, ![]⟩

abbrev nBuf : Space → Nat
  | .hbm => 20
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4x4, .f32⟩
  | .hbm, ⟨3, _⟩ => ⟨S8x3x3, .f32⟩
  | .hbm, ⟨4, _⟩ => ⟨S8x3x1, .f32⟩
  | .hbm, ⟨5, _⟩ => ⟨S8x3, .f32⟩
  | .hbm, ⟨6, _⟩ => ⟨S8x4096x3, .f32⟩
  | .hbm, ⟨7, _⟩ => ⟨S8x1x3, .f32⟩
  | .hbm, ⟨8, _⟩ => ⟨S8x4096x3, .f32⟩
  | .hbm, ⟨9, _⟩ => ⟨S8x4096x3, .f32⟩
  | .hbm, ⟨10, _⟩ => ⟨S8x3x4096, .f32⟩
  | .hbm, ⟨11, _⟩ => ⟨S8x4096x1, .f32⟩
  | .hbm, ⟨12, _⟩ => ⟨S8x1x4096, .f32⟩
  | .hbm, ⟨13, _⟩ => ⟨S8x4096, .f32⟩
  | .hbm, ⟨14, _⟩ => ⟨S8x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1024x1, .f32⟩
  | .local _ .vmem, ⟨5, _⟩ => ⟨S1x1024x1, .f32⟩
  | .local _ .vmem, ⟨6, _⟩ => ⟨S1x1x4096, .f32⟩
  | .local _ .vmem, ⟨7, _⟩ => ⟨S1x1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v31 : BitVec 1 := Scalar.cmpi .eq arg1 c0_i32
  let v32 : BitVec 32 := Scalar.extui v31
  let c0_i32_9 : BitVec 32 := 0#32
  let v33 : BitVec 1 := Scalar.cmpi .ne v32 c0_i32_9
  v33

def k0_cond2 (i : grid0.Coords) : BitVec 1 :=
  let arg1 : BitVec 32 := BitVec.ofNat 32 (i 1).val
  let c0_i32_10 : BitVec 32 := 0#32
  let v34 : BitVec 1 := Scalar.cmpi .ne arg1 c0_i32_10
  let v35 : BitVec 32 := Scalar.extui v34
  let c0_i32_11 : BitVec 32 := 0#32
  let v36 : BitVec 1 := Scalar.cmpi .ne v35 c0_i32_11
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S8x4x4_S8x3x3_0_0_0 : S8x4x4.Slices ![0, 0, 0] S8x3x3
  slices_S8x4x4_S8x3x1_0_0_3 : S8x4x4.Slices ![0, 0, 3] S8x3x1
  shapeCasts_S8x3x1_S8x3 : S8x3x1.ShapeCasts S8x3
  bcast_S8x3_S8x1x3_0_2 : S8x3.BroadcastsInDim S8x1x3 (![0, 2] : Fin 2 → Fin S8x1x3.rank)
  bcast_S8x1x3_S8x4096x3_0_1_2 : S8x1x3.BroadcastsInDim S8x4096x3 (![0, 1, 2] : Fin 3 → Fin S8x4096x3.rank)
  transposes_S8x4096x3_S8x3x4096_0_2_1 : S8x4096x3.Transposes [0, 2, 1] S8x3x4096
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  slices_S1024x3_o0_0_S1024x1 : S1024x3.Slices ![0, 0] S1024x1
  slices_S3x4096_o0_0_S1x4096 : S3x4096.Slices ![0, 0] S1x4096
  broadcasts_S1024x1_S1024x4096 : S1024x1.Broadcasts S1024x4096
  broadcasts_S1x4096_S1024x4096 : S1x4096.Broadcasts S1024x4096
  slices_S1024x3_o0_1_S1024x1 : S1024x3.Slices ![0, 1] S1024x1
  slices_S3x4096_o1_0_S1x4096 : S3x4096.Slices ![1, 0] S1x4096
  slices_S1024x3_o0_2_S1024x1 : S1024x3.Slices ![0, 2] S1024x1
  slices_S3x4096_o2_0_S1x4096 : S3x4096.Slices ![2, 0] S1x4096
  reduces_S1024x4096_S1024 : S1024x4096.Reduces [1] S1024
  shapeCasts_S1024_S1024x1 : S1024.ShapeCasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reduces_S1024x4096_S4096 : S1024x4096.Reduces [0] S4096
  shapeCasts_S4096_S1x4096 : S4096.ShapeCasts S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x4096x1_S8x4096 : S8x4096x1.ShapeCasts S8x4096
  shapeCasts_S8x1x4096_S8x4096 : S8x1x4096.ShapeCasts S8x4096
  reducesTo_S8x4096_S_d0_1 : S8x4096.ReducesTo [0, 1] S_
  h_S_ : 0 < S_.numel
  dot_S8x4096x3_S8x3x3_S8x4096x3_2_2_1_1_0_0_wf : DotDims.WF S8x4096x3 S8x3x3 S8x4096x3 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S8x4096x1.size a
  hwx0_2 : ∀ i : grid0.Coords, EltTy.bits .f32 = 32 ∨ (Rect.block (s := S8x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S8x4096x3_S8x3x3_S8x4096x3_2_2_1_1_0_0 : DotDims S8x4096x3 S8x3x3 S8x4096x3 where
  lhsContracting := [2]
  rhsContracting := [2]
  lhsNonContracting := [1]
  rhsNonContracting := [1]
  lhsBatch := [0]
  rhsBatch := [0]
  wf := dot_S8x4096x3_S8x3x3_S8x4096x3_2_2_1_1_0_0_wf

abbrev win0_0 : Pipeline.Window sig grid0 :=
  Pipeline.Window.ofSpec (Memref.whole main_v6) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x4x4 : Shape := ⟨3, ![8, 4, 4]⟩
abbrev S8x3x3 : Shape := ⟨3, ![8, 3, 3]⟩
abbrev S8x3x1 : Shape := ⟨3, ![8, 3, 1]⟩
abbrev S8x3 : Shape := ⟨2, ![8, 3]⟩
abbrev S8x1x3 : Shape := ⟨3, ![8, 1, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4x4, .f32⟩
  | .hbm, ⟨3, _⟩ => ⟨S8x3x3, .f32⟩
  | .hbm, ⟨4, _⟩ => ⟨S8x3x1, .f32⟩
  | .hbm, ⟨5, _⟩ => ⟨S8x3, .f32⟩
  | .hbm, ⟨6, _⟩ => ⟨S8x4096x3, .f32⟩
  | .hbm, ⟨7, _⟩ => ⟨S8x1x3, .f32⟩
  | .hbm, ⟨8, _⟩ => ⟨S8x4096x3, .f32⟩
  | .hbm, ⟨9, _⟩ => ⟨S8x4096x3, .f32⟩
  | .hbm, ⟨10, _⟩ => ⟨S8x4096x3, .f32⟩
  | .hbm, ⟨11, _⟩ => ⟨S_, .f32⟩
  | .hbm, ⟨12, _⟩ => ⟨S8x4096, .f32⟩
  | .hbm, ⟨13, _⟩ => ⟨S8x4096x3, .f32⟩
  | .hbm, ⟨14, _⟩ => ⟨S_, .f32⟩
  | .hbm, ⟨15, _⟩ => ⟨S8x4096, .f32⟩
  | .hbm, ⟨16, _⟩ => ⟨S8x4096x4096, .f32⟩
  | .hbm, ⟨17, _⟩ => ⟨S8x4096x1, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x4096, .f32⟩
  | .hbm, ⟨32, _⟩ => ⟨S_, .f32⟩
  | .hbm, ⟨33, _⟩ => ⟨S_, .f32⟩
  | .hbm, ⟨34, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  slices_S8x4x4_S8x3x3_0_0_0 : S8x4x4.Slices ![0, 0, 0] S8x3x3
  slices_S8x4x4_S8x3x1_0_0_3 : S8x4x4.Slices ![0, 0, 3] S8x3x1
  shapeCasts_S8x3x1_S8x3 : S8x3x1.ShapeCasts S8x3
  bcast_S8x3_S8x1x3_0_2 : S8x3.BroadcastsInDim S8x1x3 (![0, 2] : Fin 2 → Fin S8x1x3.rank)
  bcast_S8x1x3_S8x4096x3_0_1_2 : S8x1x3.BroadcastsInDim S8x4096x3 (![0, 1, 2] : Fin 3 → Fin S8x4096x3.rank)
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S_d0_1 : S8x4096.ReducesTo [0, 1] S_
  reducesTo_S8x4096x4096_S8x4096_d2 : S8x4096x4096.ReducesTo [2] S8x4096
  dot_S8x4096x3_S8x3x3_S8x4096x3_2_2_1_1_0_0_wf : DotDims.WF S8x4096x3 S8x3x3 S8x4096x3 [2] [2] [1] [1] [0] [0]
  dot_S8x4096x3_S8x4096x3_S8x4096x4096_2_2_1_1_0_0_wf : DotDims.WF S8x4096x3 S8x4096x3 S8x4096x4096 [2] [2] [1] [1] [0] [0]

variable [Facts₀]

def dot_S8x4096x3_S8x3x3_S8x4096x3_2_2_1_1_0_0 : DotDims S8x4096x3 S8x3x3 S8x4096x3 where
  lhsContracting := [2]
  rhsContracting := [2]
  lhsNonContracting := [1]
  rhsNonContracting := [1]
  lhsBatch := [0]
  rhsBatch := [0]
  wf := dot_S8x4096x3_S8x3x3_S8x4096x3_2_2_1_1_0_0_wf
def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KI.Cases.lean ====
/-
  The grid of the Chamfer kernel is 8 batches by 4 tiles of source points, visited batch by batch: point `t` is tile
  `t % 4` of batch `t / 4`. The body branches twice on the tile number: at the first tile of a batch it starts the
  running column minimum afresh, at every later tile it folds the tile's column minimum into the running one.
  Exactly one of the two branches is taken at every point, so no point leaves the column-minimum buffer untouched.
-/
import proofs.«158874_j8830452761307_2_alg».proof.Proof.Gen.KernelIdeal.Frame
import proofs.«158874_j8830452761307_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (start the running minimum) is taken exactly at the first tile of each batch. -/
theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The second branch (fold into the running minimum) is taken exactly at the later tiles. -/
theorem cond2_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- Whatever the tile number, one of the two branches stores into the column-minimum buffer: the two conditions are
    "tile = 0" and "tile ≠ 0" of a tile number below four. -/
theorem idle3_false (i : grid0.Coords) : idle0 3 i = false := by
  have key : ∀ j : Fin 4,
      (!(Scalar.cmpi .ne (Scalar.extui (Scalar.cmpi .eq (BitVec.ofNat 32 j.val) 0#32)) 0#32 == 1#1)
        && !(Scalar.cmpi .ne (Scalar.extui (Scalar.cmpi .ne (BitVec.ofNat 32 j.val) 0#32)) 0#32 == 1#1)) = false := by
    decide
  exact key (i 1)

/-- No window is idle at any point. -/
theorem idle_false (w : Fin cfg0.W) (i : grid0.Coords) : cfg0.idle w i = false := by
  match w with
  | ⟨0, _⟩ => rfl
  | ⟨1, _⟩ => rfl
  | ⟨2, _⟩ => rfl
  | ⟨3, _⟩ => exact idle3_false i

/-- The staging buffer each window is on at point `t`, and that it is a whole buffer. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

/-- One staging buffer of each output window, through which its contents are stated. -/
abbrev VO2 : View sig .tc .vmem S1x1024x1 .f32 := (Memref.whole cc0_stg2_0 : Memref sig .tc .vmem S1x1024x1 .f32).view
abbrev VO3 : View sig .tc .vmem S1x1x4096 .f32 := (Memref.whole cc0_stg3_0 : Memref sig .tc .vmem S1x1x4096 .f32).view

end Cert.KernelIdeal.Body

end
-- ==== Proof.KI.RunFirst.lean ====
/-
  The body at the first tile of a batch. It reads the tile of source points and the batch's reconstructed points,
  stores the tile's row minima over the whole row-minimum block, and — the first branch taken, the second not — stores
  the tile's column minima over the whole column-minimum block, whatever either output block held before.
-/
import proofs.«158874_j8830452761307_2_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores of the body leave in the two output blocks at a first tile, as lists of written pieces, together
    with the run itself: from the two input blocks at their contents and the two output blocks at any contents, the body
    runs to its end holding the inputs as they were and each output block with its pieces written. -/
noncomputable def runFirst (c : Dev nD) (i : grid0.Coords)
    (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1)
    (x0 : Vec F S1x1024x3 .f32) (x1 : Vec F S1x3x4096 .f32) :
    { L : List (View.Piece (Elt F) S1x1024x1 .f32) × List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__chamfer_kernel i arg2 harg2 arg3 harg3 arg4 harg4 arg5 harg5) K } := by
  refine ⟨(?_, ?_), fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Body

end
-- ==== Proof.KI.RunLater.lean ====
/-
  The body at a later tile of a batch. As at the first tile it stores the tile's row minima over the whole row-minimum
  block; the first branch is not taken and the second is: it reads the column-minimum block, which still holds the
  running minimum over the batch's earlier tiles, and stores over the whole of it the pointwise minimum of that running
  value and this tile's column minima.
-/
import proofs.«158874_j8830452761307_2_alg».proof.Proof.KI.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores of the body leave in the two output blocks at a later tile, as lists of written pieces, together
    with the run itself: from the two input blocks at their contents, the row-minimum block at any contents and the
    column-minimum block at its running contents `xo`, the body runs to its end holding the inputs as they were and each
    output block with its pieces written. -/
noncomputable def runLater (c : Dev nD) (i : grid0.Coords)
    (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1)
    (x0 : Vec F S1x1024x3 .f32) (x1 : Vec F S1x3x4096 .f32) (xo : Vec F S1x1x4096 .f32) :
    { L : List (View.Piece (Elt F) S1x1024x1 .f32) × List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__chamfer_kernel i arg2 harg2 arg3 harg3 arg4 harg4 arg5 harg5) K } := by
  refine ⟨(?_, ?_), fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Body

end
-- ==== Proof.KI.Outs.lean ====
/-
  What the two output blocks of the Chamfer kernel hold after the body at every grid point.

  The row-minimum block is stored whole at every point and written back at every point, so what it holds after a point
  depends on that point's input blocks only. The column-minimum block of a batch stays in its buffer over the batch's
  four tiles and is written back after the last: after the first tile it holds that tile's column minima, after each later
  tile what the body makes of the tile's inputs and of what the tile before left — a recursion on the point.
-/
import proofs.«158874_j8830452761307_2_alg».proof.Proof.KI.RunLater

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover the blocks -/

/-- At a first tile the one store into the row-minimum block covers it. -/
theorem coverFirst2 (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x3x4096 .f32) (y : S1x1024x1.Idx) :
    ∃ pc ∈ (runFirst c i arg2 harg2 arg3 harg3 arg4 harg4 arg5 harg5 hc1 hc2 x0 x1).1.1, y ∈ pc.1.set :=
  View.cover_of_tiledL (runFirst c i arg2 harg2 arg3 harg3 arg4 harg4 arg5 harg5 hc1 hc2 x0 x1).1.1 S1x1024x1.size (by sl_kernel_rfl) y
/-- At a first tile the one store into the column-minimum block covers it. -/
theorem coverFirst3 (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x3x4096 .f32) (y : S1x1x4096.Idx) :
    ∃ pc ∈ (runFirst c i arg2 harg2 arg3 harg3 arg4 harg4 arg5 harg5 hc1 hc2 x0 x1).1.2, y ∈ pc.1.set :=
  View.cover_of_tiledL (runFirst c i arg2 harg2 arg3 harg3 arg4 harg4 arg5 harg5 hc1 hc2 x0 x1).1.2 S1x1x4096.size (by sl_kernel_rfl) y
/-- At a later tile the one store into the row-minimum block covers it. -/
theorem coverLater2 (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x3x4096 .f32) (xo : Vec F S1x1x4096 .f32) (y : S1x1024x1.Idx) :
    ∃ pc ∈ (runLater c i arg2 harg2 arg3 harg3 arg4 harg4 arg5 harg5 hc1 hc2 x0 x1 xo).1.1, y ∈ pc.1.set :=
  View.cover_of_tiledL (runLater c i arg2 harg2 arg3 harg3 arg4 harg4 arg5 harg5 hc1 hc2 x0 x1 xo).1.1 S1x1024x1.size (by sl_kernel_rfl) y
/-- At a later tile the one store into the column-minimum block covers it. -/
theorem coverLater3 (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x3x4096 .f32) (xo : Vec F S1x1x4096 .f32) (y : S1x1x4096.Idx) :
    ∃ pc ∈ (runLater c i arg2 harg2 arg3 harg3 arg4 harg4 arg5 harg5 hc1 hc2 x0 x1 xo).1.2, y ∈ pc.1.set :=
  View.cover_of_tiledL (runLater c i arg2 harg2 arg3 harg3 arg4 harg4 arg5 harg5 hc1 hc2 x0 x1 xo).1.2 S1x1x4096.size (by sl_kernel_rfl) y

/-! ## What a point leaves in each output block -/

/-- The row-minimum block after a first tile: its written pieces read back. -/
def rowFirst (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x3x4096 .f32) : Vec F S1x1024x1 .f32 :=
  VO2.read (Elt F) (VO2.writes (Elt F) VO2.junk (runFirst c i arg2 harg2 arg3 harg3 arg4 harg4 arg5 harg5 hc1 hc2 x0 x1).1.1)
/-- The column-minimum block after a first tile. -/
def colFirst (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x3x4096 .f32) : Vec F S1x1x4096 .f32 :=
  VO3.read (Elt F) (VO3.writes (Elt F) VO3.junk (runFirst c i arg2 harg2 arg3 harg3 arg4 harg4 arg5 harg5 hc1 hc2 x0 x1).1.2)
/-- The row-minimum block after a later tile. -/
def rowLater (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x3x4096 .f32) (xo : Vec F S1x1x4096 .f32) : Vec F S1x1024x1 .f32 :=
  VO2.read (Elt F) (VO2.writes (Elt F) VO2.junk (runLater c i arg2 harg2 arg3 harg3 arg4 harg4 arg5 harg5 hc1 hc2 x0 x1 xo).1.1)
/-- The column-minimum block after a later tile, from the running contents `xo` it found. -/
def colLater (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x3x4096 .f32) (xo : Vec F S1x1x4096 .f32) : Vec F S1x1x4096 .f32 :=
  VO3.read (Elt F) (VO3.writes (Elt F) VO3.junk (runLater c i arg2 harg2 arg3 harg3 arg4 harg4 arg5 harg5 hc1 hc2 x0 x1 xo).1.2)

/-- The two conditions at a first tile, and at a later one, from the closed forms. -/
theorem first_c1 (t : Fin cfg0.N) (h0 : t.val % 4 = 0) : k0_cond1 (grid0.coords t) = 1#1 := (cond1_iff t).mpr h0
theorem first_c2 (t : Fin cfg0.N) (h0 : t.val % 4 = 0) : ¬ k0_cond2 (grid0.coords t) = 1#1 := fun h => (cond2_iff t).mp h h0
theorem later_c1 (t : Fin cfg0.N) (h0 : ¬ t.val % 4 = 0) : ¬ k0_cond1 (grid0.coords t) = 1#1 := fun h => h0 ((cond1_iff t).mp h)
theorem later_c2 (t : Fin cfg0.N) (h0 : ¬ t.val % 4 = 0) : k0_cond2 (grid0.coords t) = 1#1 := (cond2_iff t).mpr h0

/-- THE RUNNING COLUMN MINIMUM. What the column-minimum block holds after the body at position `n`: at a first tile
    what that tile leaves, at a later one what the tile makes of what position `n - 1` left. -/
def colAt (c : Dev nD) : (n : ℕ) → n < cfg0.N → Vec F S1x1x4096 .f32
  | 0, hn => colFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (first_c1 ⟨0, hn⟩ (Nat.zero_mod _)) (first_c2 ⟨0, hn⟩ (Nat.zero_mod _)) (iblk m c 0 ⟨0, hn⟩) (iblk m c 1 ⟨0, hn⟩)
  | n + 1, hn =>
    if h0 : (n + 1) % 4 = 0 then
      colFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (first_c1 ⟨n + 1, hn⟩ h0) (first_c2 ⟨n + 1, hn⟩ h0) (iblk m c 0 ⟨n + 1, hn⟩) (iblk m c 1 ⟨n + 1, hn⟩)
    else
      colLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (later_c1 ⟨n + 1, hn⟩ h0) (later_c2 ⟨n + 1, hn⟩ h0) (iblk m c 0 ⟨n + 1, hn⟩) (iblk m c 1 ⟨n + 1, hn⟩) (colAt c n (Nat.lt_of_succ_lt hn))

/-- The position before `t`, as a position of the grid. -/
theorem pred_lt (t : Fin cfg0.N) : t.val - 1 < cfg0.N := Nat.lt_of_le_of_lt (Nat.sub_le _ _) t.isLt

/-- `colAt` at a first tile. -/
theorem colAt_first (c : Dev nD) (t : Fin cfg0.N) (h0 : t.val % 4 = 0) :
    colAt m c t.val t.isLt = colFirst c (grid0.coords t) (ms0 t) (hs0 t) (ms1 t) (hs1 t) (ms2 t) (hs2 t) (ms3 t) (hs3 t) (first_c1 t h0) (first_c2 t h0) (iblk m c 0 t) (iblk m c 1 t) := by
  obtain ⟨n, hn⟩ := t
  cases n with
  | zero => exact rfl
  | succ n => exact (dif_pos h0).trans rfl

/-- `colAt` at a later tile: over what the position before left. -/
theorem colAt_later (c : Dev nD) (t : Fin cfg0.N) (h0 : ¬ t.val % 4 = 0) :
    colAt m c t.val t.isLt = colLater c (grid0.coords t) (ms0 t) (hs0 t) (ms1 t) (hs1 t) (ms2 t) (hs2 t) (ms3 t) (hs3 t) (later_c1 t h0) (later_c2 t h0) (iblk m c 0 t) (iblk m c 1 t) (colAt m c (t.val - 1) (pred_lt t)) := by
  obtain ⟨n, hn⟩ := t
  cases n with
  | zero => exact (by exfalso; (try dsimp only at h0); exact absurd (Nat.zero_mod _) h0)
  | succ n => exact (dif_neg h0).trans rfl

/-- What the row-minimum block holds after the body at point `t`. -/
def rowAt (c : Dev nD) (t : Fin cfg0.N) : Vec F S1x1024x1 .f32 :=
  if h0 : t.val % 4 = 0 then
    rowFirst c (grid0.coords t) (ms0 t) (hs0 t) (ms1 t) (hs1 t) (ms2 t) (hs2 t) (ms3 t) (hs3 t) (first_c1 t h0) (first_c2 t h0) (iblk m c 0 t) (iblk m c 1 t)
  else
    rowLater c (grid0.coords t) (ms0 t) (hs0 t) (ms1 t) (hs1 t) (ms2 t) (hs2 t) (ms3 t) (hs3 t) (later_c1 t h0) (later_c2 t h0) (iblk m c 0 t) (iblk m c 1 t) (colAt m c (t.val - 1) (pred_lt t))

end Cert.KernelIdeal.Body

end
-- ==== Proof.KI.Frame.lean ====
/-
  The frame of the Chamfer kernel: from what the output blocks hold after each point, the proof data of the pipeline,
  the body's obligation at every point, and the run of the whole program — it terminates, faults nowhere, and leaves its
  argument arrays unchanged.
-/
import proofs.«158874_j8830452761307_2_alg».proof.Proof.KI.Outs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the pipeline on core `c`: the arrays as the region finds them; after the body at point `t` each
    input's buffer at its block, the row-minimum buffer at `rowAt`, the column-minimum buffer at `colAt`; the invariant is
    the scoped rest and the generator register; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowAt m c t
    | ⟨3, _⟩ => colAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = rowAt m c t := by dsimp only [dats]
theorem after_3 (c : Dev nD) (t : Fin cfg0.N) : (dats m 0 c).after 3 t = colAt m c t.val t.isLt := by dsimp only [dats]

/-- Each input's buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later tile the column-minimum buffer holds what the body left at the point before: that point did not write the
    block back (only a batch's last tile does), and no point is idle for the window. -/
theorem before_3_later (c : Dev nD) (t : Fin cfg0.N) (h0 : ¬ t.val % 4 = 0) (d) :
    (dats m 0 c).before 3 t d = colAt m c (t.val - 1) (pred_lt t) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (idle_false 3) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the tile number says which run applies; at a later tile
    the column-minimum buffer holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 4 = 0
  · rw [colAt_first m c t h0]
    unfold rowAt; rw [dif_pos h0]
    unfold rowFirst colFirst
    iintro ⟨HΦ, Ho, ⟨%d0, H0⟩, ⟨%d1, H1⟩, ⟨%d2, H2⟩, ⟨%d3, H3⟩⟩
    iapply ((runFirst c (grid0.coords t) _ _ _ _ _ _ _ _ (first_c1 t h0) (first_c2 t h0) (iblk m c 0 t) (iblk m c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst2 c _ _ _ _ _ _ _ _ _ _ _ _ _)
    · unfold owns; iexists _; isplitr
      swap; · iexact H3
      ipureintro; exact View.read_writes_of_cover _ _ _ _ _ (coverFirst3 c _ _ _ _ _ _ _ _ _ _ _ _ _)
  · rw [colAt_later m c t h0]
    simp only [before_3_later m c t h0]
    unfold rowAt; rw [dif_neg h0]
    unfold rowLater colLater
    iintro ⟨HΦ, Ho, ⟨%d0, H0⟩, ⟨%d1, H1⟩, ⟨%d2, H2⟩, ⟨%d3, H3⟩⟩
    iapply ((runLater c (grid0.coords t) _ _ _ _ _ _ _ _ (later_c1 t h0) (later_c2 t h0) (iblk m c 0 t) (iblk m c 1 t) _).2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater2 c _ _ _ _ _ _ _ _ _ _ _ _ _ _)
    · unfold owns; iexists _; isplitr
      swap; · iexact H3
      ipureintro; exact View.read_writes_of_cover _ _ _ _ _ (coverLater3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [show cfg0.idle 3 (cfg0.grid.coords t) = false from idle3_false _]
  exact sound_body m c t

/-! ## The run and the frame -/

set_option backward.isDefEq.respectTransparency.types false in
/-- Every weakly fair execution of the program terminates, and every final state has every array of the pipeline at what
    the library computes from the proof data and every other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end, faults nowhere, and leaves its three argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KI.Pieces.lean ====
/-
  At every grid point the body stores ONE piece over the whole of each output block, so what the block holds after the
  point is that store's payload: the tile's row minima in the row-minimum block, and in the column-minimum block the
  tile's column minima at a first tile, at a later tile the pointwise minimum of the running column minimum found there
  and the tile's column minima. The loads feeding the payloads read the whole input blocks, so the payloads are over the
  blocks' contents themselves; what the body loads from the output blocks before storing feeds no payload at a first
  tile.
-/
import proofs.«158874_j8830452761307_2_alg».proof.Proof.KI.Outs
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a block read or stored whole. -/
theorem hz3 : (![0, 0, 0] : Fin 3 → Nat) = fun _ => 0 := funext fun a => by fin_cases a <;> rfl

/-- After a first tile the row-minimum block holds the tile's row minima. -/
theorem rowFirst_eq (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x3x4096 .f32) :
    rowFirst c i arg2 harg2 arg3 harg3 arg4 harg4 arg5 harg5 hc1 hc2 x0 x1 = Gen.k0_pay2 x0 x1 := by
  unfold rowFirst
  rw [View.read_writes_eq_canon _ _ _ (coverFirst2 c i arg2 harg2 arg3 harg3 arg4 harg4 arg5 harg5 hc1 hc2 x0 x1)]
  unfold runFirst
  dsimp only
  rw [View.canon_unit_zero hz3]
  simp only [View.readAt_eq_ld, harg2.read_unread, harg3.read_unread, View.ld_unit_zero (S := S1x1024x3) hz3, View.ld_unit_zero (S := S1x3x4096) hz3, View.ld_unit_zero (S := S1x1x4096) hz3]

/-- After a first tile the column-minimum block holds the tile's column minima. -/
theorem colFirst_eq (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x3x4096 .f32) :
    colFirst c i arg2 harg2 arg3 harg3 arg4 harg4 arg5 harg5 hc1 hc2 x0 x1 = Gen.k0_pay4 x0 x1 := by
  unfold colFirst
  rw [View.read_writes_eq_canon _ _ _ (coverFirst3 c i arg2 harg2 arg3 harg3 arg4 harg4 arg5 harg5 hc1 hc2 x0 x1)]
  unfold runFirst
  dsimp only
  rw [View.canon_unit_zero hz3]
  simp only [View.readAt_eq_ld, harg2.read_unread, harg3.read_unread, View.ld_unit_zero (S := S1x1024x3) hz3, View.ld_unit_zero (S := S1x3x4096) hz3, View.ld_unit_zero (S := S1x1x4096) hz3]

/-- After a later tile the row-minimum block holds the tile's row minima. -/
theorem rowLater_eq (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x3x4096 .f32) (xo : Vec F S1x1x4096 .f32) :
    rowLater c i arg2 harg2 arg3 harg3 arg4 harg4 arg5 harg5 hc1 hc2 x0 x1 xo = Gen.k0_pay2 x0 x1 := by
  unfold rowLater
  rw [View.read_writes_eq_canon _ _ _ (coverLater2 c i arg2 harg2 arg3 harg3 arg4 harg4 arg5 harg5 hc1 hc2 x0 x1 xo)]
  unfold runLater
  dsimp only
  rw [View.canon_unit_zero hz3]
  simp only [View.readAt_eq_ld, harg2.read_unread, harg3.read_unread, harg5.read_unread, View.ld_unit_zero (S := S1x1024x3) hz3, View.ld_unit_zero (S := S1x3x4096) hz3, View.ld_unit_zero (S := S1x1x4096) hz3]

/-- After a later tile the column-minimum block holds the minimum of the running column minimum it held and the
    tile's column minima. -/
theorem colLater_eq (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x3x4096 .f32) (xo : Vec F S1x1x4096 .f32) :
    colLater c i arg2 harg2 arg3 harg3 arg4 harg4 arg5 harg5 hc1 hc2 x0 x1 xo = Gen.k0_pay5 x0 x1 xo := by
  unfold colLater
  rw [View.read_writes_eq_canon _ _ _ (coverLater3 c i arg2 harg2 arg3 harg3 arg4 harg4 arg5 harg5 hc1 hc2 x0 x1 xo)]
  unfold runLater
  dsimp only
  rw [View.canon_unit_zero hz3]
  simp only [View.readAt_eq_ld, harg2.read_unread, harg3.read_unread, harg5.read_unread, View.ld_unit_zero (S := S1x1024x3) hz3, View.ld_unit_zero (S := S1x3x4096) hz3, View.ld_unit_zero (S := S1x1x4096) hz3]

end Cert.KernelIdeal.Body

end
-- ==== Proof.ChamferSpec.lean ====
/-
  The mathematics of the Chamfer distance that both programs compute, stated once over the extended reals.

  For a batch `b`, a source point `n` and a reconstructed point `m`, each a point of three coordinates, the squared
  Euclidean distance is `(g₀ - p₀)² + (g₁ - p₁)² + (g₂ - p₂)²` (`sq3`, `dist`). The loss adds, over every batch, the
  minimum over source points for each reconstructed point (`colMin`) and the minimum over reconstructed points for
  each source point (`rowMin`). A minimum over a finite range is the lattice infimum of the extended reals, whose top
  is `+∞`, the value both programs start their running minimum from.

  The 4096 source points are visited in four tiles of 1024 (`tileIdx`): a running minimum over the tiles in order is
  the minimum over all of them (`inf_tiles`, proved where it is used).
-/
import Idealize.ShloMosaic.Lib.ValueIdx

noncomputable section

namespace Cert.Chamfer

open Idealize.ShloMosaic Idealize.ShloMosaic.ValueIdx

/-- The squared distance of two points given by three coordinates each: the three squared differences, added left to
    right. -/
def sq3 (g p : Fin 3 → EReal) : EReal :=
  ((g 0 - p 0) * (g 0 - p 0) + (g 1 - p 1) * (g 1 - p 1)) + (g 2 - p 2) * (g 2 - p 2)

/-- The squared distance between source point `n` and reconstructed point `m` of batch `b`: `g` holds the
    (transformed) source points and `q` the reconstructed ones, both as [8, 4096, 3] arrays. -/
def dist (g q : (⟨3, ![8, 4096, 3]⟩ : Shape).Idx → EReal) (b : Fin 8) (n m : Fin 4096) : EReal :=
  sq3 (fun d => g (ix3 b n d)) (fun d => q (ix3 b m d))

/-- For each batch and reconstructed point, the least squared distance to a source point. -/
def colMin (g q : (⟨3, ![8, 4096, 3]⟩ : Shape).Idx → EReal) : (⟨2, ![8, 4096]⟩ : Shape).Idx → EReal :=
  fun j => Finset.univ.inf fun n : Fin 4096 => dist g q (j 0) n (j 1)

/-- For each batch and source point, the least squared distance to a reconstructed point. -/
def rowMin (g q : (⟨3, ![8, 4096, 3]⟩ : Shape).Idx → EReal) : (⟨2, ![8, 4096]⟩ : Shape).Idx → EReal :=
  fun j => Finset.univ.inf fun m : Fin 4096 => dist g q (j 0) (j 1) m

/-- Source point `r` of tile `i`: the tiles are consecutive runs of 1024 points. -/
def tileIdx (i : Fin 4) (r : Fin 1024) : Fin 4096 := ⟨1024 * i.val + r.val, by omega⟩

end Cert.Chamfer

end
-- ==== Proof.LibColBroadcast.lean ====
/-
  A column broadcast along the second axis, and a vector read as a column, at an index given by coordinates.

  A column, an array of shape [a, 1], broadcast along the second axis to [a, b] repeats the column in every one of
  the b columns: at (r, j) it reads the column's entry r, whatever j is. A vector of a entries reshaped to a
  column [a, 1] keeps its entries in order: the column reads, at (r, u), entry r of the vector. (The companions of
  the row forms: [1, b] broadcast to [a, b], and a vector [b] read as a row [1, b].)
-/
import Idealize.ShloMosaic.Lib.Pipeline.Value
import Idealize.ShloMosaic.Lib.ValueIdx

noncomputable section

namespace Cert.ColBroadcast

open Idealize.ShloMosaic Idealize.ShloMosaic.ValueIdx

/-- A column `[a, 1]` broadcast along the second axis to `[a, b]` reads, at `(r, j)`, the column's entry `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- A vector of a entries cast to a column [a, 1] reads, at (r, u), entry r: the two indices have the same
    row-major position. -/
theorem shapeCast_col_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by have := u.isLt; omega
    rw [Shape.rowMajor_val_two, Shape.rowMajor_val_one]
    show r.val = r.val * 1 + u.val
    rw [hu]; omega)

end Cert.ColBroadcast

end
-- ==== Proof.LibMinReduce.lean ====
/-
  A minimum-reduction over one axis, read at a result index, over the extended reals.

  A `vector.multi_reduction <minimumf>` over ONE axis, at a result index `j`, is the fold of `min`, from the value of
  its accumulator word, over that axis's coordinates, each inserted into `j` (`multiReduction_minimumf_single`: the
  companion of the library's reading of a maximum-reduction). Started from the f32 word of +infinity, which denotes the
  top element of the extended reals, that fold is the lattice infimum over the axis's coordinates
  (`multiReduction_minimumf_inf`): folding `min` from the top over a finite set is the set's `Finset.inf`.
  Any rank, axis and extents.
-/
import Idealize.ShloMosaic.PureOps.Ideal.Laws
import Idealize.ShloMosaic.PureOps.Reduce

noncomputable section

namespace Cert.MinReduce

open Idealize.ShloMosaic

/-- The f32 word of +infinity denotes the top of the extended reals. -/
theorem ofBits_posInf_f32 : Idealize.ShloMosaic.Ideal.ofBits .f32 0x7F800000#32 = (⊤ : EReal) := by
  simp [Idealize.ShloMosaic.Ideal.ofBits, Idealize.ShloMosaic.Ideal.ieee]

/-- Folding `min` from the top element over a finite set is the set's infimum. -/
theorem fold_min_top_eq_inf {ι : Type} (s : Finset ι) (f : ι → EReal) : s.fold min ⊤ f = s.inf f := by
  classical
  induction s using Finset.induction_on with
  | empty => simp
  | insert a s ha ih => rw [Finset.fold_insert ha, Finset.inf_insert, ih]

/-- A minimum-reduction over ONE axis, read at a result index: the fold of `min` from the accumulator's value over
    that axis's coordinates, each inserted into the result index. -/
theorem multiReduction_minimumf_single {s t : Shape} {a : Fin s.rank} {φ : FTy} (src : FVec Idealize.ShloMosaic.Ideal s φ)
    (acc : BitVec φ.bits) (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- An f32 minimum-reduction over one axis started from +infinity is the infimum over that axis's coordinates. -/
theorem multiReduction_minimumf_inf {s t : Shape} {a : Fin s.rank} (src : FVec Idealize.ShloMosaic.Ideal s .f32)
    (h : s.Reduces [a] t) (hφ : FKind.Formats .f32) (hacc : (0x7F800000#32 : BitVec 32) = FKind.minimumf.neutral .f32 hφ)
    (j : t.Idx) :
    multiReduction .minimumf [a] t src 0x7F800000#32 h hφ hacc j
      = (Finset.univ : Finset (Fin (s.size a))).inf fun k => src (h.lift j k) := by
  refine (multiReduction_minimumf_single src _ h hφ hacc j).trans ?_
  show Finset.fold min (Idealize.ShloMosaic.Ideal.ofBits .f32 0x7F800000#32) _ _ = _
  rw [ofBits_posInf_f32]
  exact fold_min_top_eq_inf _ _

end Cert.MinReduce

end
-- ==== Proof.PayloadRead.lean ====
/-
  The kernel's payloads read at an index, over the extended reals.

  One grid step holds a tile of 1024 source points g (rows r, coordinate d along the last axis) and all 4096
  reconstructed points p, transposed (coordinate d along the middle axis, point m along the last). The step forms the
  1024 x 4096 tile of squared distances

      P[r, m] = ((g r 0 - p 0 m)^2 + (g r 1 - p 1 m)^2) + (g r 2 - p 2 m)^2

  (`pay1_apply`), stores for every row r the minimum of P[r, .] over the 4096 columns (`pay2_apply`), and for every
  column m the minimum of P[., m] over the tile's 1024 rows, either as it is (`pay4_apply`) or folded into the running
  minimum already stored (`pay5_apply`). A minimum over a range is the infimum of the extended reals: the reductions
  start from +infinity, the top element, and fold `min`, which is what `Finset.inf` is.
-/
import proofs.«158874_j8830452761307_2_alg».proof.Proof.Gen.KernelIdeal.Skeleton
import proofs.«158874_j8830452761307_2_alg».proof.Proof.ChamferSpec
import proofs.«158874_j8830452761307_2_alg».proof.Proof.LibColBroadcast
import proofs.«158874_j8830452761307_2_alg».proof.Proof.LibMinReduce
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Payload

open Idealize.ShloMosaic Idealize.ShloMosaic.ValueIdx Cert.KernelIdeal Cert.KernelIdeal.Gen Cert.Chamfer Cert.ColBroadcast Cert.MinReduce

/-! ## The tile of squared distances -/

variable (x0 : Vec Idealize.ShloMosaic.Ideal S1x1024x3 .f32) (x1 : Vec Idealize.ShloMosaic.Ideal S1x3x4096 .f32)
  (xo : Vec Idealize.ShloMosaic.Ideal S1x1x4096 .f32)

/-- Coordinate `k` of the source points, cut out as a column and repeated along the 4096 columns, reads at (r, m)
    the source point r's coordinate `k`. -/
theorem gcol_apply (o : Nat) (k : Fin 3) (hk : k.val = o) (hc : S1x1024x3.ShapeCasts S1024x3)
    (hs : S1024x3.Slices ![0, o] S1024x1) (hb : S1024x1.Broadcasts S1024x4096) (r : Fin 1024) (m : Fin 4096) :
    broadcastTo S1024x4096 (extractStridedSlice S1024x1 ![0, o] (shapeCast S1024x3 x0 hc) hs) hb (ix2 r m)
      = x0 (ix3 (0 : Fin 1) r k) :=
  (broadcastTo_a1_ab_apply _ hb r m).trans
    ((slice2_axis1_apply o _ hs r (0 : Fin 1) k (by rw [hk]; rfl)).trans (shapeCast_1ab_ab_apply x0 hc r k))

/-- Coordinate `k` of the reconstructed points, cut out as a row and repeated down the 1024 rows, reads at (r, m)
    the reconstructed point m's coordinate `k`. -/
theorem prow_apply (o : Nat) (k : Fin 3) (hk : k.val = o) (hc : S1x3x4096.ShapeCasts S3x4096)
    (hs : S3x4096.Slices ![o, 0] S1x4096) (hb : S1x4096.Broadcasts S1024x4096) (r : Fin 1024) (m : Fin 4096) :
    broadcastTo S1024x4096 (extractStridedSlice S1x4096 ![o, 0] (shapeCast S3x4096 x1 hc) hs) hb (ix2 r m)
      = x1 (ix3 (0 : Fin 1) k m) :=
  (broadcastTo_1b_ab_apply _ hb r m).trans
    ((slice2_axis0_apply o _ hs (0 : Fin 1) m k (by rw [hk]; rfl)).trans (shapeCast_1ab_ab_apply x1 hc k m))

/-- The tile at (r, m) is the squared distance between source point r and reconstructed point m. -/
theorem pay1_apply (r : Fin 1024) (m : Fin 4096) :
    k0_pay1 (F := Idealize.ShloMosaic.Ideal) x0 x1 (ix2 r m)
      = sq3 (fun d => x0 (ix3 (0 : Fin 1) r d)) (fun d => x1 (ix3 (0 : Fin 1) d m)) := by
  unfold k0_pay1 sq3
  simp only [addf_apply, mulf_apply, subf_apply]
  rw [gcol_apply x0 0 0 rfl, gcol_apply x0 1 1 rfl, gcol_apply x0 2 2 rfl,
    prow_apply x1 0 0 rfl, prow_apply x1 1 1 rfl, prow_apply x1 2 2 rfl]

/-! ## The two minima of the tile -/

/-- Over the tile's second axis, row index r with column m inserted is the tile index (r, m). -/
theorem lift_axis1 (h : S1024x4096.Reduces [1] S1024) (r : Fin 1024) (m : Fin 4096) :
    h.lift (ix1 r) m = ix2 r m := by
  funext c
  match c with
  | ⟨0, _⟩ => exact Fin.ext rfl
  | ⟨1, _⟩ => exact Fin.ext rfl

/-- Over the tile's first axis, column index m with row r inserted is the tile index (r, m). -/
theorem lift_axis0 (h : S1024x4096.Reduces [0] S4096) (m : Fin 4096) (r : Fin 1024) :
    h.lift (ix1 m) r = ix2 r m := by
  funext c
  match c with
  | ⟨0, _⟩ => exact Fin.ext rfl
  | ⟨1, _⟩ => exact Fin.ext rfl

/-- The row minimum stored for source point r: the least squared distance from it to a reconstructed point. -/
theorem pay2_apply (r : Fin 1024) :
    k0_pay2 (F := Idealize.ShloMosaic.Ideal) x0 x1 (ix3 (0 : Fin 1) r (0 : Fin 1))
      = Finset.univ.inf fun m : Fin 4096 =>
          sq3 (fun d => x0 (ix3 (0 : Fin 1) r d)) (fun d => x1 (ix3 (0 : Fin 1) d m)) := by
  unfold k0_pay2
  refine (shapeCast_ab_1ab_apply _ _ (0 : Fin 1) r (0 : Fin 1)).trans ?_
  refine (shapeCast_col_apply _ _ r (0 : Fin 1)).trans ?_
  refine (multiReduction_minimumf_inf _ _ _ _ (ix1 r)).trans ?_
  refine Finset.inf_congr rfl fun (m : Fin 4096) _ => ?_
  exact (congrArg (k0_pay1 (F := Idealize.ShloMosaic.Ideal) x0 x1) (lift_axis1 _ r m)).trans (pay1_apply x0 x1 r m)

/-- The tile's column minimum as a row: the least squared distance from reconstructed point m to a source point of
    the tile. -/
theorem pay3_apply (m : Fin 4096) :
    k0_pay3 (F := Idealize.ShloMosaic.Ideal) x0 x1 (ix2 (0 : Fin 1) m)
      = Finset.univ.inf fun r : Fin 1024 =>
          sq3 (fun d => x0 (ix3 (0 : Fin 1) r d)) (fun d => x1 (ix3 (0 : Fin 1) d m)) := by
  unfold k0_pay3
  refine (shapeCast_a_1a_apply _ _ (0 : Fin 1) m).trans ?_
  refine (multiReduction_minimumf_inf _ _ _ _ (ix1 m)).trans ?_
  refine Finset.inf_congr rfl fun (r : Fin 1024) _ => ?_
  exact (congrArg (k0_pay1 (F := Idealize.ShloMosaic.Ideal) x0 x1) (lift_axis0 _ m r)).trans (pay1_apply x0 x1 r m)

/-- The column minimum stored at the first tile. -/
theorem pay4_apply (m : Fin 4096) :
    k0_pay4 (F := Idealize.ShloMosaic.Ideal) x0 x1 (ix3 (0 : Fin 1) (0 : Fin 1) m)
      = Finset.univ.inf fun r : Fin 1024 =>
          sq3 (fun d => x0 (ix3 (0 : Fin 1) r d)) (fun d => x1 (ix3 (0 : Fin 1) d m)) := by
  unfold k0_pay4
  exact (shapeCast_ab_1ab_apply _ _ (0 : Fin 1) (0 : Fin 1) m).trans (pay3_apply x0 x1 m)

/-- The column minimum stored at a later tile: the minimum of what is stored already and the tile's column minimum. -/
theorem pay5_apply (m : Fin 4096) :
    k0_pay5 (F := Idealize.ShloMosaic.Ideal) x0 x1 xo (ix3 (0 : Fin 1) (0 : Fin 1) m)
      = min (xo (ix3 (0 : Fin 1) (0 : Fin 1) m))
          (Finset.univ.inf fun r : Fin 1024 =>
            sq3 (fun d => x0 (ix3 (0 : Fin 1) r d)) (fun d => x1 (ix3 (0 : Fin 1) d m))) := by
  unfold k0_pay5
  refine (shapeCast_ab_1ab_apply _ _ (0 : Fin 1) (0 : Fin 1) m).trans ?_
  refine (minimumf_apply _ _ _).trans ?_
  rw [shapeCast_1ab_ab_apply xo _ (0 : Fin 1) m, pay3_apply x0 x1 m]

end Cert.KernelIdeal.Payload

end
-- ==== Proof.TileMin.lean ====
/-
  The minimum over all 4096 source points is the minimum of the four minima over the tiles of 1024 consecutive
  points: every point lies in exactly one tile, at position (n / 1024, n % 1024).
-/
import proofs.«158874_j8830452761307_2_alg».proof.Proof.ChamferSpec

noncomputable section

namespace Cert.KernelIdeal.Payload

open Cert.Chamfer

/-- Every source point is a point of one of the four tiles. -/
theorem exists_tileIdx (n : Fin 4096) : ∃ (i : Fin 4) (r : Fin 1024), tileIdx i r = n := by
  refine ⟨⟨n.val / 1024, by omega⟩, ⟨n.val % 1024, by omega⟩, ?_⟩
  refine Fin.ext ?_
  show 1024 * (n.val / 1024) + n.val % 1024 = n.val
  omega

/-- The infimum over all source points is the running minimum, tile after tile, of the tiles' infima. -/
theorem inf_tiles (f : Fin 4096 → EReal) :
    Finset.univ.inf f =
      min (min (min (Finset.univ.inf fun r : Fin 1024 => f (tileIdx 0 r))
                    (Finset.univ.inf fun r : Fin 1024 => f (tileIdx 1 r)))
               (Finset.univ.inf fun r : Fin 1024 => f (tileIdx 2 r)))
          (Finset.univ.inf fun r : Fin 1024 => f (tileIdx 3 r)) := by
  refine le_antisymm ?_ ?_
  · -- the whole infimum is below every element, hence below each tile's infimum
    refine le_min (le_min (le_min ?_ ?_) ?_) ?_ <;>
      exact Finset.le_inf fun r _ => Finset.inf_le (Finset.mem_univ _)
  · -- each element lies in one of the tiles
    refine Finset.le_inf fun n _ => ?_
    obtain ⟨i, r, rfl⟩ := exists_tileIdx n
    have h0 : (Finset.univ.inf fun r : Fin 1024 => f (tileIdx i r)) ≤ f (tileIdx i r) :=
      Finset.inf_le (f := fun r : Fin 1024 => f (tileIdx i r)) (Finset.mem_univ r)
    refine le_trans ?_ h0
    match i with
    | ⟨0, _⟩ => exact le_trans (min_le_left _ _) (le_trans (min_le_left _ _) (min_le_left _ _))
    | ⟨1, _⟩ => exact le_trans (min_le_left _ _) (le_trans (min_le_left _ _) (min_le_right _ _))
    | ⟨2, _⟩ => exact le_trans (min_le_left _ _) (min_le_right _ _)
    | ⟨3, _⟩ => exact min_le_right _ _

end Cert.KernelIdeal.Payload

end
-- ==== Proof.KI.Value.lean ====
/-
  What the Chamfer kernel's two result arrays hold after the run, over the extended reals.

  Point `t` of the grid is tile `t % 4` of batch `t / 4`. Its block of transformed source points is rows
  `1024·(t % 4) … 1024·(t % 4) + 1023` of batch `t / 4`, its block of reconstructed points the whole of batch `t / 4`
  (coordinates along the middle axis). Writing `P b n k` for the squared distance between source point `n` and
  reconstructed point `k` of batch `b`:
  the row-minimum block after point `t` holds, at row `r`, the least `P b n k` over all `k`, for `n` the tile's row `r`;
  the column-minimum block after the first tile of a batch holds, at column `k`, the least `P b n k` over the tile's
  rows `n`, and after each later tile the lesser of what it held and that tile's least. After a batch's fourth tile that
  is the least over all 4096 source points (a minimum over consecutive tiles is the minimum over their union), and only
  then is the block written back. Every index of either result array lies in exactly such a written block.
-/
import proofs.«158874_j8830452761307_2_alg».proof.Proof.KI.Frame
import proofs.«158874_j8830452761307_2_alg».proof.Proof.KI.Pieces
import proofs.«158874_j8830452761307_2_alg».proof.Proof.PayloadRead
import proofs.«158874_j8830452761307_2_alg».proof.Proof.TileMin
import proofs.«158874_j8830452761307_2_alg».proof.Proof.ChamferSpec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Body Cert.KernelIdeal.Payload Cert.Chamfer
open Idealize.ShloMosaic Idealize.ShloMosaic.TcCoe Idealize.SL.Sem Idealize.ShloMosaic.ValueIdx
open Idealize.ShloMosaic.Pipeline (Dat)

variable (m : (ℓ : Loc nD τ sig) → Buf (Elt Idealize.ShloMosaic.Ideal) ℓ) (ρ : Dev nD → PrngReg)

/-! ## The grid -/

theorem lt32 (t : Fin cfg0.N) : t.val < 32 := lt_of_lt_of_eq t.isLt (show cfg0.N = 32 from N_0)

/-- The batch and the tile of a grid point. -/
def batchOf (t : Fin cfg0.N) : Fin 8 := ⟨t.val / 4, by have := lt32 t; omega⟩
def tileOf (t : Fin cfg0.N) : Fin 4 := ⟨t.val % 4, Nat.mod_lt _ (by decide)⟩

/-- The four windows' block indices at point `t`: the batch on the first axis; the tile on the second axis of the
    source points and of the row minima, zero there for the reconstructed points and the column minima; zero on the
    third. Decided over the 32 points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-! ## The arrays the region reads, and the squared distance over them -/

/-- The transformed source points and the reconstructed points (coordinates along the middle axis) as the region finds
    them. -/
abbrev G6 (c : Dev nD) : S8x4096x3.Idx → EReal := V m c main_v6
abbrev G7 (c : Dev nD) : S8x3x4096.Idx → EReal := V m c main_v7

/-- The squared distance between source point `n` and reconstructed point `k` of batch `b`. -/
def P (c : Dev nD) (b : Fin 8) (n k : Fin 4096) : EReal :=
  sq3 (fun d => G6 m c (ix3 b n d)) (fun d => G7 m c (ix3 b d k))

/-- Row `r`, coordinate `d` of point `t`'s block of source points is the array at the batch, the tile's row, `d`. -/
theorem blk0_apply (c : Dev nD) (t : Fin cfg0.N) (r : Fin 1024) (d : Fin 3) :
    (iblk m c 0 t : Vec Idealize.ShloMosaic.Ideal S1x1024x3 .f32) (ix3 (0 : Fin 1) r d)
      = G6 m c (ix3 (batchOf t) (tileIdx (tileOf t) r) d) := by
  obtain ⟨e0, e1, e2, -⟩ := idx_facts t
  unfold iblk
  rw [View.read_apply]
  show V m c main_v6 _ = V m c main_v6 _
  congr 1
  funext a
  apply Fin.ext
  match a with
  | ⟨0, _⟩ => show win0_0.index t (0 : Fin 3) * 1 + 1 * 0 = t.val / 4; omega
  | ⟨1, _⟩ => show win0_0.index t (1 : Fin 3) * 1024 + 1 * r.val = 1024 * (t.val % 4) + r.val; omega
  | ⟨2, _⟩ => show win0_0.index t (2 : Fin 3) * 3 + 1 * d.val = d.val; omega

/-- Coordinate `d`, column `k` of point `t`'s block of reconstructed points is the array at the batch, `d`, `k`. -/
theorem blk1_apply (c : Dev nD) (t : Fin cfg0.N) (d : Fin 3) (k : Fin 4096) :
    (iblk m c 1 t : Vec Idealize.ShloMosaic.Ideal S1x3x4096 .f32) (ix3 (0 : Fin 1) d k)
      = G7 m c (ix3 (batchOf t) d k) := by
  obtain ⟨-, -, -, e0, e1, e2, -⟩ := idx_facts t
  unfold iblk
  rw [View.read_apply]
  show V m c main_v7 _ = V m c main_v7 _
  congr 1
  funext a
  apply Fin.ext
  match a with
  | ⟨0, _⟩ => show win0_1.index t (0 : Fin 3) * 1 + 1 * 0 = t.val / 4; omega
  | ⟨1, _⟩ => show win0_1.index t (1 : Fin 3) * 3 + 1 * d.val = d.val; omega
  | ⟨2, _⟩ => show win0_1.index t (2 : Fin 3) * 4096 + 1 * k.val = k.val; omega

/-- The squared distance of a row of the first block and a column of the second is `P` at the batch and the tile's row. -/
theorem sq3_blocks (c : Dev nD) (t : Fin cfg0.N) (r : Fin 1024) (k : Fin 4096) :
    sq3 (fun d => (iblk m c 0 t : Vec Idealize.ShloMosaic.Ideal S1x1024x3 .f32) (ix3 (0 : Fin 1) r d))
        (fun d => (iblk m c 1 t : Vec Idealize.ShloMosaic.Ideal S1x3x4096 .f32) (ix3 (0 : Fin 1) d k))
      = P m c (batchOf t) (tileIdx (tileOf t) r) k := by
  unfold P
  congr 1
  · funext d; exact blk0_apply m c t r d
  · funext d; exact blk1_apply m c t d k

/-! ## The row minima -/

/-- Whatever the tile, the row-minimum block after point `t` is the row-minimum payload of the point's two blocks. -/
theorem rowAt_eq (c : Dev nD) (t : Fin cfg0.N) : rowAt m c t = k0_pay2 (iblk m c 0 t) (iblk m c 1 t) := by
  unfold rowAt
  by_cases h0 : t.val % 4 = 0
  · rw [dif_pos h0]; exact rowFirst_eq ..
  · rw [dif_neg h0]; exact rowLater_eq ..

/-- At row `r`: the least squared distance from the tile's source point `r` to a reconstructed point. -/
theorem rowAt_apply (c : Dev nD) (t : Fin cfg0.N) (r : Fin 1024) :
    rowAt m c t (ix3 (0 : Fin 1) r (0 : Fin 1)) = Finset.univ.inf fun k : Fin 4096 => P m c (batchOf t) (tileIdx (tileOf t) r) k := by
  rw [rowAt_eq]
  refine (pay2_apply (iblk m c 0 t) (iblk m c 1 t) r).trans ?_
  exact Finset.inf_congr rfl fun k _ => sq3_blocks m c t r k

/-! ## The column minima: a running minimum over a batch's tiles -/

/-- The least squared distance from a source point of point `t`'s tile to reconstructed point `k`. -/
def tileMin (c : Dev nD) (t : Fin cfg0.N) (k : Fin 4096) : EReal :=
  Finset.univ.inf fun r : Fin 1024 => P m c (batchOf t) (tileIdx (tileOf t) r) k

/-- After a first tile the column-minimum block holds the tile's least. -/
theorem col_first (c : Dev nD) (n : ℕ) (hn : n < cfg0.N) (h0 : n % 4 = 0) (k : Fin 4096) :
    colAt m c n hn (ix3 (0 : Fin 1) (0 : Fin 1) k) = tileMin m c ⟨n, hn⟩ k := by
  have e := colAt_first m c ⟨n, hn⟩ h0
  refine (congrFun e _).trans ?_
  rw [colFirst_eq]
  refine (pay4_apply (iblk m c 0 ⟨n, hn⟩) (iblk m c 1 ⟨n, hn⟩) k).trans ?_
  exact Finset.inf_congr rfl fun r _ => sq3_blocks m c ⟨n, hn⟩ r k

/-- The position does not depend on how its bound is proved, nor on how the number is written. -/
theorem colAt_congr (c : Dev nD) (n n' : ℕ) (h : n = n') (hn : n < cfg0.N) (hn' : n' < cfg0.N) :
    colAt m c n hn = colAt m c n' hn' := by subst h; rfl

/-- After a later tile it holds the lesser of what the tile before left and the tile's least. -/
theorem col_later (c : Dev nD) (n : ℕ) (hn : n + 1 < cfg0.N) (h0 : ¬ (n + 1) % 4 = 0) (k : Fin 4096) :
    colAt m c (n + 1) hn (ix3 (0 : Fin 1) (0 : Fin 1) k)
      = min (colAt m c n (Nat.lt_of_succ_lt hn) (ix3 (0 : Fin 1) (0 : Fin 1) k)) (tileMin m c ⟨n + 1, hn⟩ k) := by
  have e := colAt_later m c ⟨n + 1, hn⟩ h0
  refine (congrFun e _).trans ?_
  rw [colLater_eq]
  refine (pay5_apply (iblk m c 0 ⟨n + 1, hn⟩) (iblk m c 1 ⟨n + 1, hn⟩) _ k).trans ?_
  refine congr (congrArg min ?_) ?_
  · exact congrFun (colAt_congr m c _ n (Nat.add_sub_cancel n 1) _ _) _
  · exact Finset.inf_congr rfl fun r _ => sq3_blocks m c ⟨n + 1, hn⟩ r k

/-- The tile's least at the `j`-th point of a batch is the least over tile `j` of that batch. -/
theorem tileMin_at (c : Dev nD) (b : Fin 8) (j : Fin 4) (n : ℕ) (hn : n < cfg0.N) (hnb : n = 4 * b.val + j.val) (k : Fin 4096) :
    tileMin m c ⟨n, hn⟩ k = Finset.univ.inf fun r : Fin 1024 => P m c b (tileIdx j r) k := by
  have hb : batchOf ⟨n, hn⟩ = b := Fin.ext (by show n / 4 = b.val; have := j.isLt; omega)
  have hj : tileOf ⟨n, hn⟩ = j := Fin.ext (by show n % 4 = j.val; have := j.isLt; omega)
  unfold tileMin
  rw [hb, hj]

/-- AFTER A BATCH'S LAST TILE the column-minimum block holds, at column `k`, the least squared distance from ANY source
    point of the batch to reconstructed point `k`: the four tiles' minima folded in order are the minimum over all. -/
theorem col_last (c : Dev nD) (t : Fin cfg0.N) (h3 : t.val % 4 = 3) (k : Fin 4096) :
    colAt m c t.val t.isLt (ix3 (0 : Fin 1) (0 : Fin 1) k) = Finset.univ.inf fun n : Fin 4096 => P m c (batchOf t) n k := by
  have hN := lt32 t
  have hb : (batchOf t).val = t.val / 4 := rfl
  obtain ⟨n, hn0, htn⟩ : ∃ n, n = 4 * (batchOf t).val ∧ t.val = n + 1 + 1 + 1 := ⟨t.val - 3, by omega, by omega⟩
  have h3' : n + 1 + 1 + 1 < cfg0.N := htn ▸ t.isLt
  rw [colAt_congr m c t.val (n + 1 + 1 + 1) htn t.isLt h3',
    col_later m c (n + 1 + 1) h3' (by omega) k,
    col_later m c (n + 1) (Nat.lt_of_succ_lt h3') (by omega) k,
    col_later m c n (Nat.lt_of_succ_lt (Nat.lt_of_succ_lt h3')) (by omega) k,
    col_first m c n (Nat.lt_of_succ_lt (Nat.lt_of_succ_lt (Nat.lt_of_succ_lt h3'))) (by omega) k,
    tileMin_at m c (batchOf t) 0 n _ (by simp only [Fin.val_zero]; omega) k,
    tileMin_at m c (batchOf t) 1 (n + 1) _ (by simp only [Fin.val_one]; omega) k,
    tileMin_at m c (batchOf t) 2 (n + 1 + 1) _ (by show n + 1 + 1 = 4 * (batchOf t).val + 2; omega) k,
    tileMin_at m c (batchOf t) 3 (n + 1 + 1 + 1) _ (by show n + 1 + 1 + 1 = 4 * (batchOf t).val + 3; omega) k]
  exact (inf_tiles fun n' => P m c (batchOf t) n' k).symm

/-! ## The two result arrays after the run -/

/-- What the row-minimum array ends holding: at (batch, source point, 0) the least squared distance from that point. -/
def rowArr (c : Dev nD) : S8x4096x1.Idx → EReal := fun i => Finset.univ.inf fun k : Fin 4096 => P m c (i 0) (i 1) k
/-- What the column-minimum array ends holding: at (batch, 0, reconstructed point) the least squared distance to it. -/
def colArr (c : Dev nD) : S8x1x4096.Idx → EReal := fun i => Finset.univ.inf fun n : Fin 4096 => P m c (i 0) n (i 2)

/-- Every point writes back its block of the row minima: block `t` of `rowArr`. -/
theorem flushed2_eq (c : Dev nD) (t : Fin cfg0.N) :
    (dats m 0 c).flushed 2 t = ((cfg0.win 2).blk t).view.read (Elt Idealize.ShloMosaic.Ideal) (rowArr m c) := by
  show (cfg0.win 2).cut (grid0.coords t) ((dats m 0 c).after 2 t) = _
  rw [after_2]
  obtain ⟨-, -, -, -, -, -, e0, e1, e2, -⟩ := idx_facts t
  funext j
  obtain ⟨z, r, z', rfl⟩ : ∃ (z : Fin 1) (r : Fin 1024) (z' : Fin 1), (j : S1x1024x1.Idx) = ix3 z r z' := ⟨j 0, j 1, j 2, eq_ix3 j⟩
  obtain rfl : z = 0 := Subsingleton.elim _ _
  obtain rfl : z' = 0 := Subsingleton.elim _ _
  show rowAt m c t (ix3 (0 : Fin 1) r (0 : Fin 1)) = rowArr m c (((cfg0.win 2).blk t).view.emb (ix3 (0 : Fin 1) r (0 : Fin 1)))
  rw [rowAt_apply]
  unfold rowArr
  have hb : ((cfg0.win 2).blk t).view.emb (ix3 (0 : Fin 1) r (0 : Fin 1)) (0 : Fin 3) = batchOf t :=
    Fin.ext (by show win0_2.index t (0 : Fin 3) * 1 + 1 * 0 = t.val / 4; omega)
  have hr : ((cfg0.win 2).blk t).view.emb (ix3 (0 : Fin 1) r (0 : Fin 1)) (1 : Fin 3) = tileIdx (tileOf t) r :=
    Fin.ext (by show win0_2.index t (1 : Fin 3) * 1024 + 1 * r.val = 1024 * (t.val % 4) + r.val; omega)
  show _ = Finset.univ.inf fun k : Fin 4096 => P m c (((cfg0.win 2).blk t).view.emb (ix3 (0 : Fin 1) r (0 : Fin 1)) (0 : Fin 3)) (((cfg0.win 2).blk t).view.emb (ix3 (0 : Fin 1) r (0 : Fin 1)) (1 : Fin 3)) k
  rw [hb, hr]

/-- The last tile of each batch writes back the batch's block of the column minima: block `t` of `colArr`. -/
theorem flushed3_eq (c : Dev nD) (t : Fin cfg0.N) (hf : (cfg0.win 3).flush t = true) :
    (dats m 0 c).flushed 3 t = ((cfg0.win 3).blk t).view.read (Elt Idealize.ShloMosaic.Ideal) (colArr m c) := by
  have h3 : t.val % 4 = 3 := (flush0_3 t).mp hf
  show (cfg0.win 3).cut (grid0.coords t) ((dats m 0 c).after 3 t) = _
  rw [after_3]
  obtain ⟨-, -, -, -, -, -, -, -, -, e0, e1, e2⟩ := idx_facts t
  funext j
  obtain ⟨z, z', k, rfl⟩ : ∃ (z : Fin 1) (z' : Fin 1) (k : Fin 4096), (j : S1x1x4096.Idx) = ix3 z z' k := ⟨j 0, j 1, j 2, eq_ix3 j⟩
  obtain rfl : z = 0 := Subsingleton.elim _ _
  obtain rfl : z' = 0 := Subsingleton.elim _ _
  show colAt m c t.val t.isLt (ix3 (0 : Fin 1) (0 : Fin 1) k) = colArr m c (((cfg0.win 3).blk t).view.emb (ix3 (0 : Fin 1) (0 : Fin 1) k))
  rw [col_last m c t h3]
  unfold colArr
  have hb : ((cfg0.win 3).blk t).view.emb (ix3 (0 : Fin 1) (0 : Fin 1) k) (0 : Fin 3) = batchOf t :=
    Fin.ext (by show win0_3.index t (0 : Fin 3) * 1 + 1 * 0 = t.val / 4; omega)
  have hk : ((cfg0.win 3).blk t).view.emb (ix3 (0 : Fin 1) (0 : Fin 1) k) (2 : Fin 3) = k :=
    Fin.ext (by show win0_3.index t (2 : Fin 3) * 4096 + 1 * k.val = k.val; omega)
  show _ = Finset.univ.inf fun n : Fin 4096 => P m c (((cfg0.win 3).blk t).view.emb (ix3 (0 : Fin 1) (0 : Fin 1) k) (0 : Fin 3)) n (((cfg0.win 3).blk t).view.emb (ix3 (0 : Fin 1) (0 : Fin 1) k) (2 : Fin 3))
  rw [hb, hk]

/-- An index of the row-minimum array is in point `t`'s block iff each coordinate is in the block's range. -/
theorem mem_blk2 (t : Fin cfg0.N) (i : S8x4096x1.Idx) :
    i ∈ ((cfg0.win 2).blk t).view.set ↔ ∀ a : Fin 3, win0_2.index t a * S1x1024x1.size a ≤ (i a).val ∧ (i a).val < win0_2.index t a * S1x1024x1.size a + S1x1024x1.size a := by
  show i ∈ ((View.whole main_v8_0).slice (win0_2.rect t)).set ↔ _
  rw [View.set_slice_whole, Rect.mem_set_unit]
  exact Iff.rfl
/-- The same for the column-minimum array. -/
theorem mem_blk3 (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v8_1).slice (win0_3.rect t)).set ↔ _
  rw [View.set_slice_whole, Rect.mem_set_unit]
  exact Iff.rfl

/-- The row-minimum array after the run. The point of batch `b` and tile `n / 1024` covers (b, n, 0). -/
theorem final2 (c : Dev nD) : (dats m 0 c).arrAt 2 cfg0.N = rowArr m c :=
  (dats m 0 c).arrAt_eq_of_cover 2 (rowArr m c) (fun t _ => flushed2_eq m c t) fun i => by
    have h0 : (i 0).val < 8 := (i 0).isLt
    have h1 : (i 1).val < 4096 := (i 1).isLt
    have h2 : (i 2).val < 1 := (i 2).isLt
    have hlt : 4 * (i 0).val + (i 1).val / 1024 < cfg0.N := by rw [show cfg0.N = 32 from N_0]; omega
    refine ⟨⟨4 * (i 0).val + (i 1).val / 1024, hlt⟩, flush0_2 _, ?_⟩
    rw [mem_blk2]
    obtain ⟨-, -, -, -, -, -, e0, e1, e2, -⟩ := idx_facts ⟨4 * (i 0).val + (i 1).val / 1024, hlt⟩
    intro a
    match a with
    | ⟨0, _⟩ => show win0_2.index _ (0 : Fin 3) * 1 ≤ (i 0).val ∧ (i 0).val < win0_2.index _ (0 : Fin 3) * 1 + 1; rw [e0]; dsimp only; omega
    | ⟨1, _⟩ => show win0_2.index _ (1 : Fin 3) * 1024 ≤ (i 1).val ∧ (i 1).val < win0_2.index _ (1 : Fin 3) * 1024 + 1024; rw [e1]; dsimp only; omega
    | ⟨2, _⟩ => show win0_2.index _ (2 : Fin 3) * 1 ≤ (i 2).val ∧ (i 2).val < win0_2.index _ (2 : Fin 3) * 1 + 1; rw [e2]; omega

/-- The column-minimum array after the run. The last tile of batch `b` covers (b, 0, k). -/
theorem final3 (c : Dev nD) : (dats m 0 c).arrAt 3 cfg0.N = colArr m c :=
  (dats m 0 c).arrAt_eq_of_cover 3 (colArr m c) (fun t hf => flushed3_eq m c t hf) fun i => by
    have h0 : (i 0).val < 8 := (i 0).isLt
    have h1 : (i 1).val < 1 := (i 1).isLt
    have h2 : (i 2).val < 4096 := (i 2).isLt
    have hlt : 4 * (i 0).val + 3 < cfg0.N := by rw [show cfg0.N = 32 from N_0]; omega
    refine ⟨⟨4 * (i 0).val + 3, hlt⟩, (flush0_3 _).mpr (by show (4 * (i 0).val + 3) % 4 = 3; omega), ?_⟩
    rw [mem_blk3]
    obtain ⟨-, -, -, -, -, -, -, -, -, e0, e1, e2⟩ := idx_facts ⟨4 * (i 0).val + 3, hlt⟩
    intro a
    match a with
    | ⟨0, _⟩ => show win0_3.index _ (0 : Fin 3) * 1 ≤ (i 0).val ∧ (i 0).val < win0_3.index _ (0 : Fin 3) * 1 + 1; rw [e0]; dsimp only; omega
    | ⟨1, _⟩ => show win0_3.index _ (1 : Fin 3) * 1 ≤ (i 1).val ∧ (i 1).val < win0_3.index _ (1 : Fin 3) * 1 + 1; rw [e1]; omega
    | ⟨2, _⟩ => show win0_3.index _ (2 : Fin 3) * 4096 ≤ (i 2).val ∧ (i 2).val < win0_3.index _ (2 : Fin 3) * 4096 + 4096; rw [e2]; omega

end Cert.KernelIdeal.Val

end
-- ==== Proof.KI.HostSide.lean ====
/-
  The kernel program's operations around its region, read at the ideal values.

  Before the region the program forms the transformed source points — the same seven operations the reference starts
  with — and the transpose of the reconstructed points; after it, it reshapes the region's two arrays of minima to
  [8, 4096], sums each over every entry from `0`, and adds the two sums.
-/
import proofs.«158874_j8830452761307_2_alg».proof.Proof.Gen.KernelIdeal.Frame
import proofs.«158874_j8830452761307_2_alg».proof.Proof.Gen.ReferenceIdeal.Read
import Idealize.ShloMosaic.Lib.StableHlo.Run
import Idealize.ShloMosaic.Lib.Pipeline.Value
import Idealize.ShloMosaic.Lib.Pipeline.FrameSuffix
import Idealize.ShloMosaic.Lib.ValueIdx
import Idealize.ShloMosaic.Lib.ValueLayout

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ) (c : Dev nD)

/-! ## Before the region -/

/-- The transformed source points the region finds are the reference's own term over the launched source points and
    transform: the two programs' first seven operations are the same. -/
theorem V6_eq : (Gen.V m c main_v6 : S8x4096x3.Idx → EReal)
    = Cert.ReferenceIdeal.Read.val_main_v6 (F := Ideal) (m ((c : Thread nD τ).loc main_arg1))
        (m ((c : Thread nD τ).loc main_arg2)) := by
  show StableHlo.after hostOps0 (fun b => m (c, b)) (Proc.devRef .tc main_v6) = _
  after_results
  rfl

/-- The other array the region finds is the transpose of the launched reconstructed points. -/
theorem V7_eq : (Gen.V m c main_v7 : S8x3x4096.Idx → EReal)
    = transpose S8x3x4096 [0, 2, 1] (m ((c : Thread nD τ).loc main_arg0)) transposes_S8x4096x3_S8x3x4096_0_2_1 := by
  show StableHlo.after hostOps0 (fun b => m (c, b)) (Proc.devRef .tc main_v7) = _
  after_results

/-- Read at an index: coordinate `d` of reconstructed point `mm` of batch `b`. -/
theorem V7_apply (b : Fin 8) (d : Fin 3) (mm : Fin 4096) :
    (Gen.V m c main_v7 : S8x3x4096.Idx → EReal) (ix3 b d mm) = m ((c : Thread nD τ).loc main_arg0) (ix3 b mm d) := by
  rw [V7_eq]
  exact transpose_apply [0, 2, 1] _ transposes_S8x4096x3_S8x3x4096_0_2_1 (ix3 b d mm) (ix3 b mm d)
    (fun a => match a with | ⟨0, _⟩ => rfl | ⟨1, _⟩ => rfl | ⟨2, _⟩ => rfl)

/-! ## After the region -/

/-- What the program returns, for any proof data of the region: the region's two output arrays as they stand after
    its last point, each reshaped to [8, 4096] and summed over every entry from `0`, the two sums added. -/
theorem tail_eq (dats : (p : Fin 1) → (c : Dev nD) → Pipeline.Dat τ (Elt Ideal) Unit ℕ (UR sig nD τ) ℕ (cfgs p) c) :
    Pipeline.afterTail₀ cfgs dats 0 (Gen.V0 m) [hostOps1] c main_v13
      = addf (Host.reduceAdd (F := Ideal) (shapeCast S8x4096 ((dats 0 c).arrAt 3 cfg0.N) shapeCasts_S8x1x4096_S8x4096)
            (constant S_ .f32 0x00000000#32) reducesTo_S8x4096_S_d0_1 h_S_)
          (Host.reduceAdd (F := Ideal) (shapeCast S8x4096 ((dats 0 c).arrAt 2 cfg0.N) shapeCasts_S8x4096x1_S8x4096)
            (constant S_ .f32 0x00000000#32) reducesTo_S8x4096_S_d0_1 h_S_) := by
  unfold Pipeline.afterTail₀
  show StableHlo.after hostOps1 _ (Proc.devRef .tc main_v13) = _
  after_results
  have e3 : Pipeline.withArrays (cfgs 0).spec c (V0 m c) (fun w => (dats 0 c).arrAt w (cfgs 0).N)
      (Proc.devRef .tc main_v8_1) = (dats 0 c).arrAt 3 cfg0.N :=
    Pipeline.withArrays_arr spec0 launch0.win.arr_inj c (V0 m c) (fun w => (dats 0 c).arrAt w cfg0.N) 3
  have e2 : Pipeline.withArrays (cfgs 0).spec c (V0 m c) (fun w => (dats 0 c).arrAt w (cfgs 0).N)
      (Proc.devRef .tc main_v8_0) = (dats 0 c).arrAt 2 cfg0.N :=
    Pipeline.withArrays_arr spec0 launch0.win.arr_inj c (V0 m c) (fun w => (dats 0 c).arrAt w cfg0.N) 2
  rw [e3, e2]
  rfl

/-! ## The two reshapes read at an index -/

/-- Dropping the unit middle axis of an [8, 1, 4096] array. -/
theorem reshape_row_apply (G : S8x1x4096.Idx → EReal) (j : S8x4096.Idx) :
    shapeCast S8x4096 G shapeCasts_S8x1x4096_S8x4096 j = G (ix3 (j 0) (0 : Fin 1) (j 1)) :=
  shapeCast_apply G shapeCasts_S8x1x4096_S8x4096 j (ix3 (j 0) (0 : Fin 1) (j 1)) (by
    rw [Shape.rowMajor_val_three, Shape.rowMajor_val_two]
    show ((j 0).val * 1 + 0) * 4096 + (j 1).val = (j 0).val * 4096 + (j 1).val
    omega)

/-- Dropping the unit last axis of an [8, 4096, 1] array. -/
theorem reshape_col_apply (G : S8x4096x1.Idx → EReal) (j : S8x4096.Idx) :
    shapeCast S8x4096 G shapeCasts_S8x4096x1_S8x4096 j = G (ix3 (j 0) (j 1) (0 : Fin 1)) :=
  shapeCast_apply G shapeCasts_S8x4096x1_S8x4096 j (ix3 (j 0) (j 1) (0 : Fin 1)) (by
    rw [Shape.rowMajor_val_three, Shape.rowMajor_val_two]
    show ((j 0).val * 4096 + (j 1).val) * 1 + 0 = (j 0).val * 4096 + (j 1).val
    omega)

end Cert.KernelIdeal.HostSide

end
-- ==== Proof.K.Cases.lean ====
/-
  The grid of the Chamfer kernel is 8 batches by 4 tiles of source points, visited batch by batch: point `t` is tile
  `t % 4` of batch `t / 4`. The body branches twice on the tile number: at the first tile of a batch it starts the
  running column minimum afresh, at every later tile it folds the tile's column minimum into the running one.
  Exactly one of the two branches is taken at every point, so no point leaves the column-minimum buffer untouched.
-/
import proofs.«158874_j8830452761307_2_alg».proof.Proof.Gen.Kernel.Frame
import proofs.«158874_j8830452761307_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (start the running minimum) is taken exactly at the first tile of each batch. -/
theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The second branch (fold into the running minimum) is taken exactly at the later tiles. -/
theorem cond2_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- Whatever the tile number, one of the two branches stores into the column-minimum buffer: the two conditions are
    "tile = 0" and "tile ≠ 0" of a tile number below four. -/
theorem idle3_false (i : grid0.Coords) : idle0 3 i = false := by
  have key : ∀ j : Fin 4,
      (!(Scalar.cmpi .ne (Scalar.extui (Scalar.cmpi .eq (BitVec.ofNat 32 j.val) 0#32)) 0#32 == 1#1)
        && !(Scalar.cmpi .ne (Scalar.extui (Scalar.cmpi .ne (BitVec.ofNat 32 j.val) 0#32)) 0#32 == 1#1)) = false := by
    decide
  exact key (i 1)

/-- No window is idle at any point. -/
theorem idle_false (w : Fin cfg0.W) (i : grid0.Coords) : cfg0.idle w i = false := by
  match w with
  | ⟨0, _⟩ => rfl
  | ⟨1, _⟩ => rfl
  | ⟨2, _⟩ => rfl
  | ⟨3, _⟩ => exact idle3_false i

/-- The staging buffer each window is on at point `t`, and that it is a whole buffer. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

/-- One staging buffer of each output window, through which its contents are stated. -/
abbrev VO2 : View sig .tc .vmem S1x1024x1 .f32 := (Memref.whole cc0_stg2_0 : Memref sig .tc .vmem S1x1024x1 .f32).view
abbrev VO3 : View sig .tc .vmem S1x1x4096 .f32 := (Memref.whole cc0_stg3_0 : Memref sig .tc .vmem S1x1x4096 .f32).view

end Cert.Kernel.Body

end
-- ==== Proof.K.RunFirst.lean ====
/-
  The body at the first tile of a batch. It reads the tile of source points and the batch's reconstructed points,
  stores the tile's row minima over the whole row-minimum block, and — the first branch taken, the second not — stores
  the tile's column minima over the whole column-minimum block, whatever either output block held before.
-/
import proofs.«158874_j8830452761307_2_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores of the body leave in the two output blocks at a first tile, as lists of written pieces, together
    with the run itself: from the two input blocks at their contents and the two output blocks at any contents, the body
    runs to its end holding the inputs as they were and each output block with its pieces written. -/
noncomputable def runFirst (c : Dev nD) (i : grid0.Coords)
    (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1)
    (x0 : Vec F S1x1024x3 .f32) (x1 : Vec F S1x3x4096 .f32) :
    { L : List (View.Piece (Elt F) S1x1024x1 .f32) × List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__chamfer_kernel i arg2 harg2 arg3 harg3 arg4 harg4 arg5 harg5) K } := by
  refine ⟨(?_, ?_), fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Body

end
-- ==== Proof.K.RunLater.lean ====
/-
  The body at a later tile of a batch. As at the first tile it stores the tile's row minima over the whole row-minimum
  block; the first branch is not taken and the second is: it reads the column-minimum block, which still holds the
  running minimum over the batch's earlier tiles, and stores over the whole of it the pointwise minimum of that running
  value and this tile's column minima.
-/
import proofs.«158874_j8830452761307_2_alg».proof.Proof.K.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores of the body leave in the two output blocks at a later tile, as lists of written pieces, together
    with the run itself: from the two input blocks at their contents, the row-minimum block at any contents and the
    column-minimum block at its running contents `xo`, the body runs to its end holding the inputs as they were and each
    output block with its pieces written. -/
noncomputable def runLater (c : Dev nD) (i : grid0.Coords)
    (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1)
    (x0 : Vec F S1x1024x3 .f32) (x1 : Vec F S1x3x4096 .f32) (xo : Vec F S1x1x4096 .f32) :
    { L : List (View.Piece (Elt F) S1x1024x1 .f32) × List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__chamfer_kernel i arg2 harg2 arg3 harg3 arg4 harg4 arg5 harg5) K } := by
  refine ⟨(?_, ?_), fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Body

end
-- ==== Proof.K.Outs.lean ====
/-
  What the two output blocks of the Chamfer kernel hold after the body at every grid point.

  The row-minimum block is stored whole at every point and written back at every point, so what it holds after a point
  depends on that point's input blocks only. The column-minimum block of a batch stays in its buffer over the batch's
  four tiles and is written back after the last: after the first tile it holds that tile's column minima, after each later
  tile what the body makes of the tile's inputs and of what the tile before left — a recursion on the point.
-/
import proofs.«158874_j8830452761307_2_alg».proof.Proof.K.RunLater

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover the blocks -/

/-- At a first tile the one store into the row-minimum block covers it. -/
theorem coverFirst2 (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x3x4096 .f32) (y : S1x1024x1.Idx) :
    ∃ pc ∈ (runFirst c i arg2 harg2 arg3 harg3 arg4 harg4 arg5 harg5 hc1 hc2 x0 x1).1.1, y ∈ pc.1.set :=
  View.cover_of_tiledL (runFirst c i arg2 harg2 arg3 harg3 arg4 harg4 arg5 harg5 hc1 hc2 x0 x1).1.1 S1x1024x1.size (by sl_kernel_rfl) y
/-- At a first tile the one store into the column-minimum block covers it. -/
theorem coverFirst3 (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x3x4096 .f32) (y : S1x1x4096.Idx) :
    ∃ pc ∈ (runFirst c i arg2 harg2 arg3 harg3 arg4 harg4 arg5 harg5 hc1 hc2 x0 x1).1.2, y ∈ pc.1.set :=
  View.cover_of_tiledL (runFirst c i arg2 harg2 arg3 harg3 arg4 harg4 arg5 harg5 hc1 hc2 x0 x1).1.2 S1x1x4096.size (by sl_kernel_rfl) y
/-- At a later tile the one store into the row-minimum block covers it. -/
theorem coverLater2 (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x3x4096 .f32) (xo : Vec F S1x1x4096 .f32) (y : S1x1024x1.Idx) :
    ∃ pc ∈ (runLater c i arg2 harg2 arg3 harg3 arg4 harg4 arg5 harg5 hc1 hc2 x0 x1 xo).1.1, y ∈ pc.1.set :=
  View.cover_of_tiledL (runLater c i arg2 harg2 arg3 harg3 arg4 harg4 arg5 harg5 hc1 hc2 x0 x1 xo).1.1 S1x1024x1.size (by sl_kernel_rfl) y
/-- At a later tile the one store into the column-minimum block covers it. -/
theorem coverLater3 (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x3x4096 .f32) (xo : Vec F S1x1x4096 .f32) (y : S1x1x4096.Idx) :
    ∃ pc ∈ (runLater c i arg2 harg2 arg3 harg3 arg4 harg4 arg5 harg5 hc1 hc2 x0 x1 xo).1.2, y ∈ pc.1.set :=
  View.cover_of_tiledL (runLater c i arg2 harg2 arg3 harg3 arg4 harg4 arg5 harg5 hc1 hc2 x0 x1 xo).1.2 S1x1x4096.size (by sl_kernel_rfl) y

/-! ## What a point leaves in each output block -/

/-- The row-minimum block after a first tile: its written pieces read back. -/
def rowFirst (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x3x4096 .f32) : Vec F S1x1024x1 .f32 :=
  VO2.read (Elt F) (VO2.writes (Elt F) VO2.junk (runFirst c i arg2 harg2 arg3 harg3 arg4 harg4 arg5 harg5 hc1 hc2 x0 x1).1.1)
/-- The column-minimum block after a first tile. -/
def colFirst (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x3x4096 .f32) : Vec F S1x1x4096 .f32 :=
  VO3.read (Elt F) (VO3.writes (Elt F) VO3.junk (runFirst c i arg2 harg2 arg3 harg3 arg4 harg4 arg5 harg5 hc1 hc2 x0 x1).1.2)
/-- The row-minimum block after a later tile. -/
def rowLater (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x3x4096 .f32) (xo : Vec F S1x1x4096 .f32) : Vec F S1x1024x1 .f32 :=
  VO2.read (Elt F) (VO2.writes (Elt F) VO2.junk (runLater c i arg2 harg2 arg3 harg3 arg4 harg4 arg5 harg5 hc1 hc2 x0 x1 xo).1.1)
/-- The column-minimum block after a later tile, from the running contents `xo` it found. -/
def colLater (c : Dev nD) (i : grid0.Coords) (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x3x4096 .f32) (xo : Vec F S1x1x4096 .f32) : Vec F S1x1x4096 .f32 :=
  VO3.read (Elt F) (VO3.writes (Elt F) VO3.junk (runLater c i arg2 harg2 arg3 harg3 arg4 harg4 arg5 harg5 hc1 hc2 x0 x1 xo).1.2)

/-- The two conditions at a first tile, and at a later one, from the closed forms. -/
theorem first_c1 (t : Fin cfg0.N) (h0 : t.val % 4 = 0) : k0_cond1 (grid0.coords t) = 1#1 := (cond1_iff t).mpr h0
theorem first_c2 (t : Fin cfg0.N) (h0 : t.val % 4 = 0) : ¬ k0_cond2 (grid0.coords t) = 1#1 := fun h => (cond2_iff t).mp h h0
theorem later_c1 (t : Fin cfg0.N) (h0 : ¬ t.val % 4 = 0) : ¬ k0_cond1 (grid0.coords t) = 1#1 := fun h => h0 ((cond1_iff t).mp h)
theorem later_c2 (t : Fin cfg0.N) (h0 : ¬ t.val % 4 = 0) : k0_cond2 (grid0.coords t) = 1#1 := (cond2_iff t).mpr h0

/-- THE RUNNING COLUMN MINIMUM. What the column-minimum block holds after the body at position `n`: at a first tile
    what that tile leaves, at a later one what the tile makes of what position `n - 1` left. -/
def colAt (c : Dev nD) : (n : ℕ) → n < cfg0.N → Vec F S1x1x4096 .f32
  | 0, hn => colFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (first_c1 ⟨0, hn⟩ (Nat.zero_mod _)) (first_c2 ⟨0, hn⟩ (Nat.zero_mod _)) (iblk m c 0 ⟨0, hn⟩) (iblk m c 1 ⟨0, hn⟩)
  | n + 1, hn =>
    if h0 : (n + 1) % 4 = 0 then
      colFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (first_c1 ⟨n + 1, hn⟩ h0) (first_c2 ⟨n + 1, hn⟩ h0) (iblk m c 0 ⟨n + 1, hn⟩) (iblk m c 1 ⟨n + 1, hn⟩)
    else
      colLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (later_c1 ⟨n + 1, hn⟩ h0) (later_c2 ⟨n + 1, hn⟩ h0) (iblk m c 0 ⟨n + 1, hn⟩) (iblk m c 1 ⟨n + 1, hn⟩) (colAt c n (Nat.lt_of_succ_lt hn))

/-- The position before `t`, as a position of the grid. -/
theorem pred_lt (t : Fin cfg0.N) : t.val - 1 < cfg0.N := Nat.lt_of_le_of_lt (Nat.sub_le _ _) t.isLt

/-- `colAt` at a first tile. -/
theorem colAt_first (c : Dev nD) (t : Fin cfg0.N) (h0 : t.val % 4 = 0) :
    colAt m c t.val t.isLt = colFirst c (grid0.coords t) (ms0 t) (hs0 t) (ms1 t) (hs1 t) (ms2 t) (hs2 t) (ms3 t) (hs3 t) (first_c1 t h0) (first_c2 t h0) (iblk m c 0 t) (iblk m c 1 t) := by
  obtain ⟨n, hn⟩ := t
  cases n with
  | zero => exact rfl
  | succ n => exact (dif_pos h0).trans rfl

/-- `colAt` at a later tile: over what the position before left. -/
theorem colAt_later (c : Dev nD) (t : Fin cfg0.N) (h0 : ¬ t.val % 4 = 0) :
    colAt m c t.val t.isLt = colLater c (grid0.coords t) (ms0 t) (hs0 t) (ms1 t) (hs1 t) (ms2 t) (hs2 t) (ms3 t) (hs3 t) (later_c1 t h0) (later_c2 t h0) (iblk m c 0 t) (iblk m c 1 t) (colAt m c (t.val - 1) (pred_lt t)) := by
  obtain ⟨n, hn⟩ := t
  cases n with
  | zero => exact (by exfalso; (try dsimp only at h0); exact absurd (Nat.zero_mod _) h0)
  | succ n => exact (dif_neg h0).trans rfl

/-- What the row-minimum block holds after the body at point `t`. -/
def rowAt (c : Dev nD) (t : Fin cfg0.N) : Vec F S1x1024x1 .f32 :=
  if h0 : t.val % 4 = 0 then
    rowFirst c (grid0.coords t) (ms0 t) (hs0 t) (ms1 t) (hs1 t) (ms2 t) (hs2 t) (ms3 t) (hs3 t) (first_c1 t h0) (first_c2 t h0) (iblk m c 0 t) (iblk m c 1 t)
  else
    rowLater c (grid0.coords t) (ms0 t) (hs0 t) (ms1 t) (hs1 t) (ms2 t) (hs2 t) (ms3 t) (hs3 t) (later_c1 t h0) (later_c2 t h0) (iblk m c 0 t) (iblk m c 1 t) (colAt m c (t.val - 1) (pred_lt t))

end Cert.Kernel.Body

end
-- ==== Proof.K.Frame.lean ====
/-
  The frame of the Chamfer kernel: from what the output blocks hold after each point, the proof data of the pipeline,
  the body's obligation at every point, and the run of the whole program — it terminates, faults nowhere, and leaves its
  argument arrays unchanged.
-/
import proofs.«158874_j8830452761307_2_alg».proof.Proof.K.Outs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the pipeline on core `c`: the arrays as the region finds them; after the body at point `t` each
    input's buffer at its block, the row-minimum buffer at `rowAt`, the column-minimum buffer at `colAt`; the invariant is
    the scoped rest and the generator register; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowAt m c t
    | ⟨3, _⟩ => colAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = rowAt m c t := by dsimp only [dats]
theorem after_3 (c : Dev nD) (t : Fin cfg0.N) : (dats m 0 c).after 3 t = colAt m c t.val t.isLt := by dsimp only [dats]

/-- Each input's buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later tile the column-minimum buffer holds what the body left at the point before: that point did not write the
    block back (only a batch's last tile does), and no point is idle for the window. -/
theorem before_3_later (c : Dev nD) (t : Fin cfg0.N) (h0 : ¬ t.val % 4 = 0) (d) :
    (dats m 0 c).before 3 t d = colAt m c (t.val - 1) (pred_lt t) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (idle_false 3) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the tile number says which run applies; at a later tile
    the column-minimum buffer holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 4 = 0
  · rw [colAt_first m c t h0]
    unfold rowAt; rw [dif_pos h0]
    unfold rowFirst colFirst
    iintro ⟨HΦ, Ho, ⟨%d0, H0⟩, ⟨%d1, H1⟩, ⟨%d2, H2⟩, ⟨%d3, H3⟩⟩
    iapply ((runFirst c (grid0.coords t) _ _ _ _ _ _ _ _ (first_c1 t h0) (first_c2 t h0) (iblk m c 0 t) (iblk m c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst2 c _ _ _ _ _ _ _ _ _ _ _ _ _)
    · unfold owns; iexists _; isplitr
      swap; · iexact H3
      ipureintro; exact View.read_writes_of_cover _ _ _ _ _ (coverFirst3 c _ _ _ _ _ _ _ _ _ _ _ _ _)
  · rw [colAt_later m c t h0]
    simp only [before_3_later m c t h0]
    unfold rowAt; rw [dif_neg h0]
    unfold rowLater colLater
    iintro ⟨HΦ, Ho, ⟨%d0, H0⟩, ⟨%d1, H1⟩, ⟨%d2, H2⟩, ⟨%d3, H3⟩⟩
    iapply ((runLater c (grid0.coords t) _ _ _ _ _ _ _ _ (later_c1 t h0) (later_c2 t h0) (iblk m c 0 t) (iblk m c 1 t) _).2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater2 c _ _ _ _ _ _ _ _ _ _ _ _ _ _)
    · unfold owns; iexists _; isplitr
      swap; · iexact H3
      ipureintro; exact View.read_writes_of_cover _ _ _ _ _ (coverLater3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [show cfg0.idle 3 (cfg0.grid.coords t) = false from idle3_false _]
  exact sound_body m c t

/-! ## The run and the frame -/

set_option backward.isDefEq.respectTransparency.types false in
/-- Every weakly fair execution of the program terminates, and every final state has every array of the pipeline at what
    the library computes from the proof data and every other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end, faults nowhere, and leaves its three argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.RefSide.lean ====
/-
  The reference program's value, read as the Chamfer loss of `Cert.Chamfer`.

  The reference forms, for each batch `b`, source point `n` and reconstructed point `m`, the number
  `P[b,n,m] = (|g_n|² + |q_m|²) - 2 · ⟨g_n, q_m⟩`, where `g` holds the transformed source points and `q` the
  reconstructed ones, and then takes the minimum of `P` over `n` (for each `m`) and over `m` (for each `n`).
  For REAL coordinates `P[b,n,m]` is the squared distance `Σ_d (g_d - q_d)²`: the binomial expansion, which holds
  in the reals and fails at infinities, so the inputs are assumed finite and the transformed points (a finite sum
  of products of reals plus a real) are shown finite. A minimum from `+∞` over one axis is the lattice infimum
  over that axis's coordinates.
-/
import proofs.«158874_j8830452761307_2_alg».proof.Proof.Gen.ReferenceIdeal.Read
import proofs.«158874_j8830452761307_2_alg».proof.Proof.Gen.Pre_finite_inputs
import proofs.«158874_j8830452761307_2_alg».proof.Proof.ChamferSpec
import Idealize.ShloMosaic.Lib.ValueIdx
import Idealize.ShloMosaic.Lib.Pipeline.Value
import Idealize.ShloMosaic.PureOps.Ideal.Laws
import Idealize.ShloMosaic.PureOps.Reduce
import Idealize.ShloMosaic.Lib.ReduceAll

noncomputable section

namespace Cert.ReferenceIdeal.RefSide

open Cert.ReferenceIdeal Cert.ReferenceIdeal.Gen Cert.ReferenceIdeal.Read Idealize.ShloMosaic
  Idealize.ShloMosaic.ValueIdx Cert.Chamfer

/-! ## The constants -/

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `+∞` denotes the top of the extended reals. -/
theorem ofBits_top : Ideal.ofBits .f32 0x7F800000#32 = (⊤ : EReal) := by
  simp [Ideal.ofBits, Ideal.ieee]

/-! ## The binomial expansion over the reals -/

/-- For real coordinates, `(|a|² + |c|²) - 2 ⟨a, c⟩` with the sums started from `0` is the squared distance. -/
theorem expand_eq_sq3 (a c : Fin 3 → ℝ) :
    (((0 : EReal) + ∑ d : Fin 3, (a d : EReal) * (a d : EReal)) + (0 + ∑ d : Fin 3, (c d : EReal) * (c d : EReal)))
        - ((2 : ℝ) : EReal) * ∑ d : Fin 3, (a d : EReal) * (c d : EReal)
      = sq3 (fun d => (a d : EReal)) (fun d => (c d : EReal)) := by
  unfold sq3
  simp only [Fin.sum_univ_three, zero_add]
  norm_cast
  ring

/-! ## The pairwise term `P[b,n,m]` read at an index -/

/-- The pairwise term at `(b, n, m)`: the squared norms of source point `n` and reconstructed point `m`, each summed
    from `0`, minus twice their inner product. -/
theorem v19_apply (x0 x1 : (⟨S8x4096x3, .f32⟩ : BufTy).Contents (Elt Ideal))
    (x2 : (⟨S8x4x4, .f32⟩ : BufTy).Contents (Elt Ideal)) (b : Fin 8) (n m : Fin 4096) :
    val_main_v19 (F := Ideal) x0 x1 x2 (ix3 b n m)
      = (((0 : EReal) + ∑ d : Fin 3, val_main_v6 (F := Ideal) x1 x2 (ix3 b n d) * val_main_v6 (F := Ideal) x1 x2 (ix3 b n d))
          + (0 + ∑ d : Fin 3, x0 (ix3 b m d) * x0 (ix3 b m d)))
        - ((2 : ℝ) : EReal) * ∑ d : Fin 3, val_main_v6 (F := Ideal) x1 x2 (ix3 b n d) * x0 (ix3 b m d) := by
  have e8 : ∀ k : Fin 3, idx_main_v8 (idx_main_v12 (idx_main_v14 (ix3 b n m))) k = ix3 b n k := fun k =>
    funext fun a => match a with | ⟨0, _⟩ => rfl | ⟨1, _⟩ => rfl | ⟨2, _⟩ => rfl
  have e10 : ∀ k : Fin 3, idx_main_v10 (idx_main_v13 (idx_main_v15 (ix3 b n m))) k = ix3 b m k := fun k =>
    funext fun a => match a with | ⟨0, _⟩ => rfl | ⟨1, _⟩ => rfl | ⟨2, _⟩ => rfl
  have el : ∀ k : Fin 3, lidx_main_v11 (ix3 b n m) k = ix3 b n k := fun k =>
    funext fun a => match a with | ⟨0, _⟩ => rfl | ⟨1, _⟩ => rfl | ⟨2, _⟩ => rfl
  have er : ∀ k : Fin 3, ridx_main_v11 (ix3 b n m) k = ix3 b m k := fun k =>
    funext fun a => match a with | ⟨0, _⟩ => rfl | ⟨1, _⟩ => rfl | ⟨2, _⟩ => rfl
  rw [val_main_v19_apply, val_main_v16_apply, val_main_v18_apply, val_main_v14_apply, val_main_v12_apply,
    val_main_v8_apply, val_main_v15_apply, val_main_v13_apply, val_main_v10_apply, val_main_v17_apply,
    val_main_v11_apply, val_main_cst_apply, val_main_cst_0_apply, val_main_cst_1_apply]
  simp only [val_main_v7_apply, val_main_v9_apply, e8, e10, el, er, Ideal.subf_def, Ideal.addf_def, Ideal.mulf_def,
    Ideal.ofBits_def, Ideal.ofBits_zero_f32, ofBits_two]

/-! ## Finiteness of the transformed points, and the pairwise term as the squared distance -/

/-- The transformed source points are real when the source points and the transform are: each coordinate is a sum of
    three products of reals plus a real. -/
theorem g_finite (x1 : (⟨S8x4096x3, .f32⟩ : BufTy).Contents (Elt Ideal))
    (x2 : (⟨S8x4x4, .f32⟩ : BufTy).Contents (Elt Ideal))
    (h1 : ∀ i, ∃ r : ℝ, x1 i = (r : EReal)) (h2 : ∀ i, ∃ r : ℝ, x2 i = (r : EReal)) :
    ∀ i, ∃ r : ℝ, val_main_v6 (F := Ideal) x1 x2 i = (r : EReal) := by
  intro i
  rw [val_main_v6_apply, val_main_v3_apply, val_main_v5_apply, val_main_v4_apply, val_main_v2_apply,
    val_main_v1_apply]
  simp only [val_main_v0_apply, Fin.sum_univ_three, Ideal.addf_def]
  obtain ⟨a0, e0⟩ := h1 (lidx_main_v3 i 0)
  obtain ⟨a1, e1⟩ := h1 (lidx_main_v3 i 1)
  obtain ⟨a2, e2⟩ := h1 (lidx_main_v3 i 2)
  obtain ⟨c0, f0⟩ := h2 (idx_main_v0 (ridx_main_v3 i 0))
  obtain ⟨c1, f1⟩ := h2 (idx_main_v0 (ridx_main_v3 i 1))
  obtain ⟨c2, f2⟩ := h2 (idx_main_v0 (ridx_main_v3 i 2))
  obtain ⟨t, ft⟩ := h2 (idx_main_v1 (idx_main_v2 (idx_main_v4 (idx_main_v5 i))))
  refine ⟨a0 * c0 + a1 * c1 + a2 * c2 + t, ?_⟩
  rw [e0, e1, e2, f0, f1, f2, ft]
  norm_cast

/-- For real inputs the pairwise term at `(b, n, m)` is the squared distance between transformed source point `n` and
    reconstructed point `m` of batch `b`. -/
theorem v19_eq_dist (x0 x1 : (⟨S8x4096x3, .f32⟩ : BufTy).Contents (Elt Ideal))
    (x2 : (⟨S8x4x4, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) (b : Fin 8) (n m : Fin 4096) :
    val_main_v19 (F := Ideal) x0 x1 x2 (ix3 b n m) = Cert.Chamfer.dist (val_main_v6 (F := Ideal) x1 x2) x0 b n m := by
  rw [v19_apply]
  choose a ha using fun d : Fin 3 => g_finite x1 x2 h1 h2 (ix3 b n d)
  choose c hc using fun d : Fin 3 => h0 (ix3 b m d)
  unfold Cert.Chamfer.dist
  simp only [ha, hc]
  exact expand_eq_sq3 a c

/-! ## The two minima -/

theorem reduces_d1 : S8x4096x4096.Reduces [1] S8x4096 := by decide
theorem reduces_d2 : S8x4096x4096.Reduces [2] S8x4096 := by decide

/-- A fold of `min` from `+∞` over a finite range is the lattice infimum over it. -/
theorem fold_min_top {ι : Type} (s : Finset ι) (f : ι → EReal) :
    s.fold (FloatOps.minimumf (F := Ideal) (φ := .f32)) (⊤ : EReal) f = s.inf f := rfl

/-- The minimum over source points, for each batch and reconstructed point. -/
theorem v20_eq (x0 x1 : (⟨S8x4096x3, .f32⟩ : BufTy).Contents (Elt Ideal))
    (x2 : (⟨S8x4x4, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) :
    val_main_v20 (F := Ideal) x0 x1 x2 = colMin (val_main_v6 (F := Ideal) x1 x2) x0 := by
  funext j
  unfold val_main_v20
  rw [Host.reduce_eq_fold_single FloatOps.minimumf _ _ reducesTo_S8x4096x4096_S8x4096_d1 reduces_d1 h_S_ j,
    val_main_cst_2_apply, Ideal.ofBits_def, ofBits_top, fold_min_top]
  unfold colMin
  refine Finset.inf_congr rfl fun n _ => ?_
  show val_main_v19 (F := Ideal) x0 x1 x2 (reduces_d1.lift j n) = _
  rw [show reduces_d1.lift j n = ix3 (j 0) n (j 1) from
    funext fun a => match a with | ⟨0, _⟩ => rfl | ⟨1, _⟩ => rfl | ⟨2, _⟩ => rfl]
  exact v19_eq_dist x0 x1 x2 h0 h1 h2 (j 0) n (j 1)

/-- The minimum over reconstructed points, for each batch and source point. -/
theorem v22_eq (x0 x1 : (⟨S8x4096x3, .f32⟩ : BufTy).Contents (Elt Ideal))
    (x2 : (⟨S8x4x4, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) :
    val_main_v22 (F := Ideal) x0 x1 x2 = rowMin (val_main_v6 (F := Ideal) x1 x2) x0 := by
  funext j
  unfold val_main_v22
  rw [Host.reduce_eq_fold_single FloatOps.minimumf _ _ reducesTo_S8x4096x4096_S8x4096_d2 reduces_d2 h_S_ j,
    val_main_cst_4_apply, Ideal.ofBits_def, ofBits_top, fold_min_top]
  unfold rowMin
  refine Finset.inf_congr rfl fun m _ => ?_
  show val_main_v19 (F := Ideal) x0 x1 x2 (reduces_d2.lift j m) = _
  rw [show reduces_d2.lift j m = ix3 (j 0) (j 1) m from
    funext fun a => match a with | ⟨0, _⟩ => rfl | ⟨1, _⟩ => rfl | ⟨2, _⟩ => rfl]
  exact v19_eq_dist x0 x1 x2 h0 h1 h2 (j 0) (j 1) m

/-! ## The reference's value -/

/-- For real inputs the reference returns the sum over batches and reconstructed points of the least squared distance
    to a source point, plus the sum over batches and source points of the least squared distance to a reconstructed
    point: its two minimum-reduced arrays are `colMin` and `rowMin`, and its last three operations stand as printed. -/
theorem ref_value (x0 x1 : (⟨S8x4096x3, .f32⟩ : BufTy).Contents (Elt Ideal))
    (x2 : (⟨S8x4x4, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) :
    Read.val_main_v24 (F := Ideal) x0 x1 x2
      = addf (Host.reduceAdd (F := Ideal) (Cert.Chamfer.colMin (Read.val_main_v6 (F := Ideal) x1 x2) x0)
            (constant S_ .f32 0x00000000#32) reducesTo_S8x4096_S_d0_1 h_S_)
          (Host.reduceAdd (F := Ideal) (Cert.Chamfer.rowMin (Read.val_main_v6 (F := Ideal) x1 x2) x0)
            (constant S_ .f32 0x00000000#32) reducesTo_S8x4096_S_d0_1 h_S_) := by
  unfold val_main_v24 val_main_v21 val_main_v23 val_main_cst_3 val_main_cst_5
  rw [v20_eq x0 x1 x2 h0 h1 h2, v22_eq x0 x1 x2 h0 h1 h2]

/-! ## The precondition decoded: every input entry is a real -/

instance : Subsingleton Cert.Pre_finite_inputs.S_.Idx := ⟨fun a b => funext fun d => d.elim0⟩

/-- An extended real whose absolute value compares below `+∞` is a real. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  rw [Ideal.cmpf_def, Ideal.ofBits_def, ofBits_top] at h
  induction x using EReal.rec with
  | bot => exact absurd h (by simp [Ideal.cmp, FloatOps.hostAbsf])
  | coe r => exact ⟨r, rfl⟩
  | top => exact absurd h (by simp [Ideal.cmp, FloatOps.hostAbsf])

/-- The printed predicate `finite_inputs` holds only of arrays all of whose entries are reals. -/
theorem finite_of_pre (x0 x1 : (⟨S8x4096x3, .f32⟩ : BufTy).Contents (Elt Ideal))
    (x2 : (⟨S8x4x4, .f32⟩ : BufTy).Contents (Elt Ideal)) :
    Cert.Pre_finite_inputs.fn (F := Ideal) x0 x1 x2 = (fun _ => 1#1) →
      (∀ i, ∃ r : ℝ, x0 i = (r : EReal)) ∧ (∀ i, ∃ r : ℝ, x1 i = (r : EReal)) ∧ (∀ i, ∃ r : ℝ, x2 i = (r : EReal)) := by
  intro h
  have e := congrFun h ValueIdx.ix0
  unfold Cert.Pre_finite_inputs.fn at e
  simp only [andi] at e
  rw [IntOp.andi_eq_one, IntOp.andi_eq_one] at e
  obtain ⟨⟨e0, e1⟩, e2⟩ := e
  refine ⟨fun i => ?_, fun i => ?_, fun i => ?_⟩
  · exact real_of_abs_lt_top _ (Host.reduce_andi_all _ _ _ _ _ e0 i)
  · exact real_of_abs_lt_top _ (Host.reduce_andi_all _ _ _ _ _ e1 i)
  · exact real_of_abs_lt_top _ (Host.reduce_andi_all _ _ _ _ _ e2 i)

end Cert.ReferenceIdeal.RefSide

end
-- ==== Proof.Bridge.lean ====
/-
  The two programs compute one number. Over the extended reals, from finite inputs:

  the kernel's result is the sum over (batch, reconstructed point) of the least squared distance to a source point,
  plus the sum over (batch, source point) of the least squared distance to a reconstructed point, where the squared
  distance is formed coordinate by coordinate as `(g₀ - p₀)² + (g₁ - p₁)² + (g₂ - p₂)²`;
  the reference's result is the same two sums of the same two minima of `‖g‖² + ‖p‖² - 2·g·p`, which for real
  coordinates is the same number (the binomial expansion; at an infinite coordinate it would not be, which is where the
  finiteness of the inputs is used).

  Both programs transform the source points by the same host operations, so the transformed points are one term; the
  kernel reads the reconstructed points transposed, which the squared distance undoes index by index.
-/
import proofs.«158874_j8830452761307_2_alg».proof.Proof.KI.Value
import proofs.«158874_j8830452761307_2_alg».proof.Proof.KI.HostSide
import proofs.«158874_j8830452761307_2_alg».proof.Proof.K.Frame
import proofs.«158874_j8830452761307_2_alg».proof.Proof.RefSide
import proofs.«158874_j8830452761307_2_alg».proof.Defs

set_option maxRecDepth 16384

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.Body Cert.KernelIdeal.Val Cert.KernelIdeal.HostSide Cert.Chamfer

variable (m : (ℓ : Loc nD τ sig) → Buf (Elt Idealize.ShloMosaic.Ideal) ℓ) (ρ : Dev nD → PrngReg)

/-- The column-minimum array, its unit axis dropped, is the specification's column minima of the transformed source
    points and the reconstructed points: the kernel's transposed copy read at (batch, coordinate, point) is the
    argument at (batch, point, coordinate). -/
theorem col_reshaped (c : Dev nD) :
    shapeCast S8x4096 (colArr m c) shapeCasts_S8x1x4096_S8x4096 = colMin (G6 m c) (m ((c : Thread nD τ).loc main_arg0)) := by
  funext j
  rw [reshape_row_apply]
  show (Finset.univ.inf fun n : Fin 4096 => sq3 (fun d => G6 m c (ix3 (j 0) n d)) (fun d => G7 m c (ix3 (j 0) d (j 1))))
    = Finset.univ.inf fun n : Fin 4096 => sq3 (fun d => G6 m c (ix3 (j 0) n d)) (fun d => m ((c : Thread nD τ).loc main_arg0) (ix3 (j 0) (j 1) d))
  refine Finset.inf_congr rfl fun n _ => ?_
  congr 1
  funext d
  exact V7_apply m c (j 0) d (j 1)

/-- The row-minimum array, its unit axis dropped, is the specification's row minima. -/
theorem row_reshaped (c : Dev nD) :
    shapeCast S8x4096 (rowArr m c) shapeCasts_S8x4096x1_S8x4096 = rowMin (G6 m c) (m ((c : Thread nD τ).loc main_arg0)) := by
  funext j
  rw [reshape_col_apply]
  show (Finset.univ.inf fun k : Fin 4096 => sq3 (fun d => G6 m c (ix3 (j 0) (j 1) d)) (fun d => G7 m c (ix3 (j 0) d k)))
    = Finset.univ.inf fun k : Fin 4096 => sq3 (fun d => G6 m c (ix3 (j 0) (j 1) d)) (fun d => m ((c : Thread nD τ).loc main_arg0) (ix3 (j 0) k d))
  refine Finset.inf_congr rfl fun k _ => ?_
  congr 1
  funext d
  exact V7_apply m c (j 0) d k

/-- The loss as one term of the three argument arrays: the two sums of the two minima. -/
def loss (a0 a1 : S8x4096x3.Idx → EReal) (a2 : S8x4x4.Idx → EReal) : S_.Idx → EReal :=
  addf (Host.reduceAdd (F := Idealize.ShloMosaic.Ideal) (colMin (Cert.ReferenceIdeal.Read.val_main_v6 (F := Idealize.ShloMosaic.Ideal) a1 a2) a0) (constant S_ .f32 0x00000000#32) reducesTo_S8x4096_S_d0_1 h_S_)
    (Host.reduceAdd (F := Idealize.ShloMosaic.Ideal) (rowMin (Cert.ReferenceIdeal.Read.val_main_v6 (F := Idealize.ShloMosaic.Ideal) a1 a2) a0) (constant S_ .f32 0x00000000#32) reducesTo_S8x4096_S_d0_1 h_S_)

/-- What the host operations after the region leave in the result buffer. -/
theorem result_eq (c : Dev nD) :
    Pipeline.afterTail₀ cfgs (dats m) 0 (V0 m) [hostOps1] c main_v13
      = loss (m ((c : Thread nD τ).loc main_arg0)) (m ((c : Thread nD τ).loc main_arg1)) (m ((c : Thread nD τ).loc main_arg2)) := by
  rw [tail_eq m c (dats m), final3, final2, col_reshaped, row_reshaped]
  unfold loss
  rw [show G6 m c = _ from V6_eq m c]

/-- The run of the idealized kernel, read: the result buffer at the loss of the argument arrays, the arguments
    unchanged. -/
theorem run : θ_run defs (onTc (τ := τ) (main (F := Idealize.ShloMosaic.Ideal))) ⟨m, fun _ => 0, ρ⟩ fun r => ∀ c : Dev nD,
      r.2.mem ((c.tc : Thread nD τ).loc main_v13)
        = loss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main (F := Idealize.ShloMosaic.Ideal) m ρ)

end Cert.KernelIdeal.Bridge

/-! ## The claims -/

namespace Cert.Proof.ChamferClaims

/-- The word-level kernel runs to its end and leaves its arguments unchanged. -/
theorem frame_k : Cert.frame_Kernel := fun m ρ _ => Cert.Kernel.Body.frame m ρ
/-- So does its idealization. -/
theorem frame_ki : Cert.frame_KernelIdeal := fun m ρ _ => Cert.KernelIdeal.Body.frame m ρ
/-- So does the reference: its run, the result dropped. -/
theorem frame_ri : Cert.frame_ReferenceIdeal := fun m ρ _ =>
  (θ_run Cert.ReferenceIdeal.defs _ _).mono (fun _ h c => (h c).2) (Cert.ReferenceIdeal.Value.run (F := Idealize.ShloMosaic.Ideal) m ρ)

/-- The idealization rewrote no operation. -/
theorem preserves : Cert.preserves_Kernel_KernelIdeal := trivial

/-- From finite inputs the idealized kernel and the idealized reference end with the same loss: the kernel's run ends at
    the loss term, the reference's run at its own term, which for finite inputs is the loss term. -/
theorem algebraic : Cert.algebraic_KernelIdeal_ReferenceIdeal := by
  intro m ρ m' ρ' hpre hagree
  refine ⟨fun c => Cert.KernelIdeal.Bridge.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Bridge.run m ρ, ?_⟩
  refine (θ_run Cert.ReferenceIdeal.defs _ _).mono (fun _ h c => ⟨(h c).1.trans ?_, (h c).2⟩)
    (Cert.ReferenceIdeal.Value.run (F := Idealize.ShloMosaic.Ideal) m' ρ')
  rw [Cert.ReferenceIdeal.Read.val_main_v24_eq, (hagree c).1, (hagree c).2.1, (hagree c).2.2]
  obtain ⟨h0, h1, h2⟩ := Cert.ReferenceIdeal.RefSide.finite_of_pre _ _ _ (hpre c)
  exact Cert.ReferenceIdeal.RefSide.ref_value _ _ _ h0 h1 h2

end Cert.Proof.ChamferClaims

end
-- ==== Proof.lean ====
/-
  The certificate of the Chamfer-loss kernel against its reference.

  The kernel tiles the pairwise squared distances between 4096 transformed source points and 4096 reconstructed points
  of each of 8 batches, 1024 source points at a time: each tile's row minima are final, its column minima are folded
  into a running minimum kept over the batch's four tiles; the host then adds up all column minima and all row minima.
  The reference forms all squared distances at once through `‖g‖² + ‖p‖² - 2·g·p`, takes the two minima and adds them up.

  Three frames (each program terminates, faults nowhere and leaves its arguments unchanged), the idealization (it
  rewrote nothing), and the equality of the two idealized results over the extended reals from finite inputs: each is
  proved in `Proof/Bridge.lean` from the kernel's frame and value modules, the reference's run, and the shared
  specification of the minima.
-/
import proofs.«158874_j8830452761307_2_alg».proof.Defs
import proofs.«158874_j8830452761307_2_alg».proof.Proof.Gen.Kernel
import proofs.«158874_j8830452761307_2_alg».proof.Proof.Gen.Kernel.Skeleton
import proofs.«158874_j8830452761307_2_alg».proof.Proof.Gen.Kernel.Launch
import proofs.«158874_j8830452761307_2_alg».proof.Proof.Gen.Kernel.Points
import proofs.«158874_j8830452761307_2_alg».proof.Proof.Gen.Kernel.Frame
import proofs.«158874_j8830452761307_2_alg».proof.Proof.Gen.KernelIdeal
import proofs.«158874_j8830452761307_2_alg».proof.Proof.Gen.KernelIdeal.Skeleton
import proofs.«158874_j8830452761307_2_alg».proof.Proof.Gen.KernelIdeal.Launch
import proofs.«158874_j8830452761307_2_alg».proof.Proof.Gen.KernelIdeal.Points
import proofs.«158874_j8830452761307_2_alg».proof.Proof.Gen.KernelIdeal.Frame
import proofs.«158874_j8830452761307_2_alg».proof.Proof.Gen.ReferenceIdeal
import proofs.«158874_j8830452761307_2_alg».proof.Proof.Gen.Pre_finite_inputs
import proofs.«158874_j8830452761307_2_alg».proof.Proof.Gen.ReferenceIdeal.Run
import proofs.«158874_j8830452761307_2_alg».proof.Proof.Gen.ReferenceIdeal.Read
import proofs.«158874_j8830452761307_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.ChamferClaims.frame_k, Cert.Proof.ChamferClaims.frame_ki, Cert.Proof.ChamferClaims.frame_ri,
  Cert.Proof.ChamferClaims.preserves, Cert.Proof.ChamferClaims.algebraic⟩

end Cert.Proof

end
